-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S20000x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_arg14 : IVec S1000000 32) (main_arg15 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S20000x1 : Shape := ⟨2, ![20000, 1]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 120
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S20000x128, .f32⟩
  | .hbm, ⟨27, _⟩ => ⟨S1000000x1, .i32⟩
  | .hbm, ⟨28, _⟩ => ⟨S20000x128, .f32⟩
  | .hbm, ⟨29, _⟩ => ⟨S_, .f32⟩
  | .hbm, ⟨30, _⟩ => ⟨S1000000x1, .f32⟩
  | .hbm, ⟨31, _⟩ => ⟨S_, .f32⟩
  | .hbm, ⟨32, _⟩ => ⟨S20000x1, .f32⟩
  | .hbm, ⟨33, _⟩ => ⟨S1000000x1, .i32⟩
  | .hbm, ⟨34, _⟩ => ⟨S20000x1, .f32⟩
  | .hbm, ⟨35, _⟩ => ⟨S_, .f32⟩
  | .hbm, ⟨36, _⟩ => ⟨S20000x1, .f32⟩
  | .hbm, ⟨37, _⟩ => ⟨S20000x1, .f32⟩
  | .hbm, ⟨38, _⟩ => ⟨S20000x128, .f32⟩
  | .hbm, ⟨39, _⟩ => ⟨S20000x128, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x128, .f32⟩
  | .hbm, ⟨49, _⟩ => ⟨S_, .f32⟩
  | .hbm, ⟨50, _⟩ => ⟨S100000x128, .f32⟩
  | .hbm, ⟨51, _⟩ => ⟨S1000000x1, .i32⟩
  | .hbm, ⟨52, _⟩ => ⟨S100000x128, .f32⟩
  | .hbm, ⟨53, _⟩ => ⟨S_, .f32⟩
  | .hbm, ⟨54, _⟩ => ⟨S1000000x1, .f32⟩
  | .hbm, ⟨55, _⟩ => ⟨S_, .f32⟩
  | .hbm, ⟨56, _⟩ => ⟨S100000x1, .f32⟩
  | .hbm, ⟨57, _⟩ => ⟨S1000000x1, .i32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S20000x128, .f32⟩
  | .hbm, ⟨66, _⟩ => ⟨S1x128, .f32⟩
  | .hbm, ⟨67, _⟩ => ⟨S100000x128, .f32⟩
  | .hbm, ⟨68, _⟩ => ⟨S_, .i32⟩
  | .hbm, ⟨69, _⟩ => ⟨S1000000, .i32⟩
  | .hbm, ⟨70, _⟩ => ⟨S1000000, .i1⟩
  | .hbm, ⟨71, _⟩ => ⟨S_, .i32⟩
  | .hbm, ⟨72, _⟩ => ⟨S1000000, .i32⟩
  | .hbm, ⟨73, _⟩ => ⟨S1000000, .i32⟩
  | .hbm, ⟨74, _⟩ => ⟨S1000000, .i32⟩
  | .hbm, ⟨75, _⟩ => ⟨S1000000x1, .i32⟩
  | .hbm, ⟨76, _⟩ => ⟨S1000000x128, .f32⟩
  | .hbm, ⟨77, _⟩ => ⟨S_, .f32⟩
  | .hbm, ⟨78, _⟩ => ⟨S20000x128, .f32⟩
  | .hbm, ⟨79, _⟩ => ⟨S1000000x1, .i32⟩
  | .hbm, ⟨80, _⟩ => ⟨S20000x128, .f32⟩
  | .hbm, ⟨81, _⟩ => ⟨S_, .f32⟩
  | .hbm, ⟨82, _⟩ => ⟨S1000000x1, .f32⟩
  | .hbm, ⟨83, _⟩ => ⟨S_, .f32⟩
  | .hbm, ⟨84, _⟩ => ⟨S20000x1, .f32⟩
  | .hbm, ⟨85, _⟩ => ⟨S1000000x1, .i32⟩
  | .hbm, ⟨86, _⟩ => ⟨S20000x1, .f32⟩
  | .hbm, ⟨87, _⟩ => ⟨S_, .f32⟩
  | .hbm, ⟨88, _⟩ => ⟨S20000x1, .f32⟩
  | .hbm, ⟨89, _⟩ => ⟨S20000x1, .f32⟩
  | .hbm, ⟨90, _⟩ => ⟨S20000x128, .f32⟩
  | .hbm, ⟨91, _⟩ => ⟨S20000x128, .f32⟩
  | .hbm, ⟨92, _⟩ => ⟨S_, .i32⟩
  | .hbm, ⟨93, _⟩ => ⟨S1000000, .i32⟩
  | .hbm, ⟨94, _⟩ => ⟨S1000000, .i1⟩
  | .hbm, ⟨95, _⟩ => ⟨S_, .i32⟩
  | .hbm, ⟨96, _⟩ => ⟨S1000000, .i32⟩
  | .hbm, ⟨97, _⟩ => ⟨S1000000, .i32⟩
  | .hbm, ⟨98, _⟩ => ⟨S1000000, .i32⟩
  | .hbm, ⟨99, _⟩ => ⟨S1000000x1, .i32⟩
  | .hbm, ⟨100, _⟩ => ⟨S1000000x128, .f32⟩
  | .hbm, ⟨101, _⟩ => ⟨S_, .f32⟩
  | .hbm, ⟨102, _⟩ => ⟨S100000x128, .f32⟩
  | .hbm, ⟨103, _⟩ => ⟨S1000000x1, .i32⟩
  | .hbm, ⟨104, _⟩ => ⟨S100000x128, .f32⟩
  | .hbm, ⟨105, _⟩ => ⟨S_, .f32⟩
  | .hbm, ⟨106, _⟩ => ⟨S1000000x1, .f32⟩
  | .hbm, ⟨107, _⟩ => ⟨S_, .f32⟩
  | .hbm, ⟨108, _⟩ => ⟨S100000x1, .f32⟩
  | .hbm, ⟨109, _⟩ => ⟨S1000000x1, .i32⟩
  | .hbm, ⟨110, _⟩ => ⟨S100000x1, .f32⟩
  | .hbm, ⟨111, _⟩ => ⟨S_, .f32⟩
  | .hbm, ⟨112, _⟩ => ⟨S100000x1, .f32⟩
  | .hbm, ⟨113, _⟩ => ⟨S100000x1, .f32⟩
  | .hbm, ⟨114, _⟩ => ⟨S100000x128, .f32⟩
  | .hbm, ⟨115, _⟩ => ⟨S100000x128, .f32⟩
  | .hbm, ⟨116, _⟩ => ⟨S1x128, .f32⟩
  | .hbm, ⟨117, _⟩ => ⟨S20000x128, .f32⟩
  | .hbm, ⟨118, _⟩ => ⟨S1x128, .f32⟩
  | .hbm, ⟨119, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_c_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_9 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_cst_14 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_15 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_16 : Ref sig .tc := ⟨.hbm, 92, rfl⟩
abbrev main_v58 : Ref sig .tc := ⟨.hbm, 93, rfl⟩
abbrev main_v59 : Ref sig .tc := ⟨.hbm, 94, rfl⟩
abbrev main_c_17 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_18 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_19 : Ref sig .tc := ⟨.hbm, 105, rfl⟩
abbrev main_v68 : Ref sig .tc := ⟨.hbm, 106, rfl⟩
abbrev main_cst_20 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_21 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S_S1000000x1 : S_.BroadcastsInDim S1000000x1 (![] : Fin 0 → Fin S1000000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000x1_S1000000x1_S1000000x1_1_0_0_1_wf : ScatterDims.WF S20000x1 S1000000x1 S1000000x1 [1] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S20000x128.size a
  hwx0_0 : ∀ i : grid0.Coords, EltTy.bits .f32 = 32 ∨ (Rect.block (s := S20000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S20000x128.size a
  hwx0_1 : ∀ i : grid0.Coords, EltTy.bits .f32 = 32 ∨ (Rect.block (s := S20000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S20000x128.size a
  hwx0_5 : ∀ i : grid0.Coords, EltTy.bits .f32 = 32 ∨ (Rect.block (s := S20000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S20000x128.size a
  hwx2_0 : ∀ i : grid2.Coords, EltTy.bits .f32 = 32 ∨ (Rect.block (s := S20000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S20000x128.size a
  hwx2_1 : ∀ i : grid2.Coords, EltTy.bits .f32 = 32 ∨ (Rect.block (s := S20000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S20000x128.size a
  hwx2_5 : ∀ i : grid2.Coords, EltTy.bits .f32 = 32 ∨ (Rect.block (s := S20000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000x1_S1000000x1_S1000000x1_1_0_0_1 : ScatterDims S20000x1 S1000000x1 S1000000x1 where
  updateWindowDims := [1]
  insertedWindowDims := [0]
  scatterDimsToOperandDims := [0]
  indexVectorDim := 1
  wf := scatter_S20000x1_S1000000x1_S1000000x1_1_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S20000x1 : Shape := ⟨2, ![20000, 1]⟩
abbrev S1x128 : Shape := ⟨2, ![1, 128]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S20000x128, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128, .f32⟩
  | 14 => ⟨S1000000, .i32⟩
  | 15 => ⟨S1000000, .i32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x128, .f32⟩
  | 25 => ⟨S_, .f32⟩
  | 26 => ⟨S20000x128, .f32⟩
  | 27 => ⟨S1000000x1, .i32⟩
  | 28 => ⟨S20000x128, .f32⟩
  | 29 => ⟨S_, .f32⟩
  | 30 => ⟨S1000000x1, .f32⟩
  | 31 => ⟨S_, .f32⟩
  | 32 => ⟨S20000x1, .f32⟩
  | 33 => ⟨S1000000x1, .i32⟩
  | 34 => ⟨S20000x1, .f32⟩
  | 35 => ⟨S_, .f32⟩
  | 36 => ⟨S20000x1, .f32⟩
  | 37 => ⟨S20000x1, .f32⟩
  | 38 => ⟨S20000x128, .f32⟩
  | 39 => ⟨S20000x128, .f32⟩
  | 40 => ⟨S20000x128, .f32⟩
  | 41 => ⟨S1x128, .f32⟩
  | 42 => ⟨S20000x128, .f32⟩
  | 43 => ⟨S20000x128, .f32⟩
  | 44 => ⟨S20000x128, .f32⟩
  | 45 => ⟨S20000x128, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x128, .f32⟩
  | 55 => ⟨S_, .f32⟩
  | 56 => ⟨S100000x128, .f32⟩
  | 57 => ⟨S1000000x1, .i32⟩
  | 58 => ⟨S100000x128, .f32⟩
  | 59 => ⟨S_, .f32⟩
  | 60 => ⟨S1000000x1, .f32⟩
  | 61 => ⟨S_, .f32⟩
  | 62 => ⟨S100000x1, .f32⟩
  | 63 => ⟨S1000000x1, .i32⟩
  | 64 => ⟨S100000x1, .f32⟩
  | 65 => ⟨S_, .f32⟩
  | 66 => ⟨S100000x1, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S20000x128, .f32⟩
  | 82 => ⟨S20000x128, .f32⟩
  | 83 => ⟨S20000x128, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x128, .f32⟩
  | 93 => ⟨S_, .f32⟩
  | 94 => ⟨S20000x128, .f32⟩
  | 95 => ⟨S1000000x1, .i32⟩
  | 96 => ⟨S20000x128, .f32⟩
  | 97 => ⟨S_, .f32⟩
  | 98 => ⟨S1000000x1, .f32⟩
  | 99 => ⟨S_, .f32⟩
  | 100 => ⟨S20000x1, .f32⟩
  | 101 => ⟨S1000000x1, .i32⟩
  | 102 => ⟨S20000x1, .f32⟩
  | 103 => ⟨S_, .f32⟩
  | 104 => ⟨S20000x1, .f32⟩
  | 105 => ⟨S20000x1, .f32⟩
  | 106 => ⟨S20000x128, .f32⟩
  | 107 => ⟨S20000x128, .f32⟩
  | 108 => ⟨S20000x128, .f32⟩
  | 109 => ⟨S1x128, .f32⟩
  | 110 => ⟨S20000x128, .f32⟩
  | 111 => ⟨S20000x128, .f32⟩
  | 112 => ⟨S20000x128, .f32⟩
  | 113 => ⟨S20000x128, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000x128, .f32⟩
  | 123 => ⟨S_, .f32⟩
  | 124 => ⟨S100000x128, .f32⟩
  | 125 => ⟨S1000000x1, .i32⟩
  | 126 => ⟨S100000x128, .f32⟩
  | 127 => ⟨S_, .f32⟩
  | _ => ⟨S100000x128, .f32⟩

abbrev hbmTy0_1 (i : Nat) : BufTy := match i % 128 with
  | 0 => ⟨S1000000x1, .f32⟩
  | 1 => ⟨S_, .f32⟩
  | 2 => ⟨S100000x1, .f32⟩
  | 3 => ⟨S1000000x1, .i32⟩
  | 4 => ⟨S100000x1, .f32⟩
  | 5 => ⟨S_, .f32⟩
  | 6 => ⟨S100000x1, .f32⟩
  | 7 => ⟨S100000x1, .f32⟩
  | 8 => ⟨S100000x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S100000x128, .f32⟩
  | 15 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_v49 : Ref sig .tc := ⟨.hbm, 79, rfl⟩
abbrev main_call1_cst : Ref sig .tc := ⟨.hbm, 80, rfl⟩
abbrev main_call1_v0 : Ref sig .tc := ⟨.hbm, 81, rfl⟩
abbrev main_v50 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_16 : Ref sig .tc := ⟨.hbm, 114, rfl⟩
abbrev main_v76 : Ref sig .tc := ⟨.hbm, 115, rfl⟩
abbrev main_v77 : Ref sig .tc := ⟨.hbm, 116, rfl⟩
abbrev main_c_17 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_18 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_19 : Ref sig .tc := ⟨.hbm, 127, rfl⟩
abbrev main_v86 : Ref sig .tc := ⟨.hbm, 128, rfl⟩
abbrev main_cst_20 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_21 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S_S1000000x1 : S_.BroadcastsInDim S1000000x1 (![] : Fin 0 → Fin S1000000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000x1_S1000000x1_S1000000x1_1_0_0_1_wf : ScatterDims.WF S20000x1 S1000000x1 S1000000x1 [1] [0] [0] 1
  dot_S20000x128_S128x128_S20000x128_1_0_0_1_n_n_wf : DotDims.WF S20000x128 S128x128 S20000x128 [1] [0] [0] [1] [] []
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000x1_S1000000x1_S1000000x1_1_0_0_1 : ScatterDims S20000x1 S1000000x1 S1000000x1 where
  updateWindowDims := [1]
  insertedWindowDims := [0]
  scatterDimsToOperandDims := [0]
  indexVectorDim := 1
  wf := scatter_S20000x1_S1000000x1_S1000000x1_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its two results kept.

  @main is four pallas regions among stretches of host operations. Every weakly fair execution ends, nothing faulting,
  with every unscoped buffer at the contents of the last segment boundary; read there, the two result buffers hold what
  regions 3 and 2 wrote back, and the sixteen argument buffers what they were launched with.
-/
import proofs.«133967_j50276887167328_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run_results : θ_run defs (onTc (τ := τ) (main (F := F))) ⟨m, fun _ => 0, ρ⟩ (fun r => ∀ c : Dev nD,
      r.2.mem ((c.tc : Thread nD τ).loc main_v79) = W8 m ρ c (Proc.devRef .tc main_v79)
      ∧ r.2.mem ((c.tc : Thread nD τ).loc main_v77) = W8 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v79 (by decide)),
       h c _ (mem_uc main_v77 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.RunValue

end
-- ==== Proof.BoundaryArgs.lean ====
/-
  The argument buffers at the segment boundaries of @main.

  Between the launch and the return @main's buffers pass eight boundaries: after each of the four stretches of host
  operations and after each of the four pallas regions. A host stretch changes only the buffers its operations
  write, and a region only its output array; no argument buffer is either. So at every boundary where a later
  operation or region reads an argument, that buffer still holds its launch contents.
-/
import proofs.«133967_j50276887167328_1_alg».proof.Proof.Gen.KernelIdeal.Frame
import Idealize.ShloMosaic.Lib.StableHlo.Run
import Idealize.ShloMosaic.PureOps.Ideal

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ### main_arg0 -/

set_option maxHeartbeats 4000000 in
theorem arg0_at1 : W1 m ρ c (Proc.devRef .tc main_arg0) = m ((c : Thread nD τ).loc main_arg0) := by
  show StableHlo.after hostOps0 (W0 m ρ c) (Proc.devRef .tc main_arg0) = _
  after_results_simp <;> rfl

theorem arg0_at2 : W2 m ρ c (Proc.devRef .tc main_arg0) = m ((c : Thread nD τ).loc main_arg0) :=
  (W2_of_ne m ρ c main_arg0 (by decide)).trans (arg0_at1 m ρ c)

set_option maxHeartbeats 4000000 in
theorem arg0_at3 : W3 m ρ c (Proc.devRef .tc main_arg0) = m ((c : Thread nD τ).loc main_arg0) := by
  show StableHlo.after hostOps1 (W2 m ρ c) (Proc.devRef .tc main_arg0) = _
  after_results_simp
  exact arg0_at2 m ρ c

/-! ### main_arg1 -/

set_option maxHeartbeats 4000000 in
theorem arg1_at1 : W1 m ρ c (Proc.devRef .tc main_arg1) = m ((c : Thread nD τ).loc main_arg1) := by
  show StableHlo.after hostOps0 (W0 m ρ c) (Proc.devRef .tc main_arg1) = _
  after_results_simp <;> rfl

/-! ### main_arg2 -/

set_option maxHeartbeats 4000000 in
theorem arg2_at1 : W1 m ρ c (Proc.devRef .tc main_arg2) = m ((c : Thread nD τ).loc main_arg2) := by
  show StableHlo.after hostOps0 (W0 m ρ c) (Proc.devRef .tc main_arg2) = _
  after_results_simp <;> rfl

/-! ### main_arg3 -/

set_option maxHeartbeats 4000000 in
theorem arg3_at1 : W1 m ρ c (Proc.devRef .tc main_arg3) = m ((c : Thread nD τ).loc main_arg3) := by
  show StableHlo.after hostOps0 (W0 m ρ c) (Proc.devRef .tc main_arg3) = _
  after_results_simp <;> rfl

/-! ### main_arg4 -/

set_option maxHeartbeats 4000000 in
theorem arg4_at1 : W1 m ρ c (Proc.devRef .tc main_arg4) = m ((c : Thread nD τ).loc main_arg4) := by
  show StableHlo.after hostOps0 (W0 m ρ c) (Proc.devRef .tc main_arg4) = _
  after_results_simp <;> rfl

theorem arg4_at2 : W2 m ρ c (Proc.devRef .tc main_arg4) = m ((c : Thread nD τ).loc main_arg4) :=
  (W2_of_ne m ρ c main_arg4 (by decide)).trans (arg4_at1 m ρ c)

set_option maxHeartbeats 4000000 in
theorem arg4_at3 : W3 m ρ c (Proc.devRef .tc main_arg4) = m ((c : Thread nD τ).loc main_arg4) := by
  show StableHlo.after hostOps1 (W2 m ρ c) (Proc.devRef .tc main_arg4) = _
  after_results_simp
  exact arg4_at2 m ρ c

/-! ### main_arg5 -/

set_option maxHeartbeats 4000000 in
theorem arg5_at1 : W1 m ρ c (Proc.devRef .tc main_arg5) = m ((c : Thread nD τ).loc main_arg5) := by
  show StableHlo.after hostOps0 (W0 m ρ c) (Proc.devRef .tc main_arg5) = _
  after_results_simp <;> rfl

theorem arg5_at2 : W2 m ρ c (Proc.devRef .tc main_arg5) = m ((c : Thread nD τ).loc main_arg5) :=
  (W2_of_ne m ρ c main_arg5 (by decide)).trans (arg5_at1 m ρ c)

set_option maxHeartbeats 4000000 in
theorem arg5_at3 : W3 m ρ c (Proc.devRef .tc main_arg5) = m ((c : Thread nD τ).loc main_arg5) := by
  show StableHlo.after hostOps1 (W2 m ρ c) (Proc.devRef .tc main_arg5) = _
  after_results_simp
  exact arg5_at2 m ρ c

/-! ### main_arg6 -/

set_option maxHeartbeats 4000000 in
theorem arg6_at1 : W1 m ρ c (Proc.devRef .tc main_arg6) = m ((c : Thread nD τ).loc main_arg6) := by
  show StableHlo.after hostOps0 (W0 m ρ c) (Proc.devRef .tc main_arg6) = _
  after_results_simp <;> rfl

theorem arg6_at2 : W2 m ρ c (Proc.devRef .tc main_arg6) = m ((c : Thread nD τ).loc main_arg6) :=
  (W2_of_ne m ρ c main_arg6 (by decide)).trans (arg6_at1 m ρ c)

set_option maxHeartbeats 4000000 in
theorem arg6_at3 : W3 m ρ c (Proc.devRef .tc main_arg6) = m ((c : Thread nD τ).loc main_arg6) := by
  show StableHlo.after hostOps1 (W2 m ρ c) (Proc.devRef .tc main_arg6) = _
  after_results_simp
  exact arg6_at2 m ρ c

theorem arg6_at4 : W4 m ρ c (Proc.devRef .tc main_arg6) = m ((c : Thread nD τ).loc main_arg6) :=
  (W4_of_ne m ρ c main_arg6 (by decide)).trans (arg6_at3 m ρ c)

set_option maxHeartbeats 4000000 in
theorem arg6_at5 : W5 m ρ c (Proc.devRef .tc main_arg6) = m ((c : Thread nD τ).loc main_arg6) := by
  show StableHlo.after hostOps2 (W4 m ρ c) (Proc.devRef .tc main_arg6) = _
  after_results_simp
  exact arg6_at4 m ρ c

/-! ### main_arg7 -/

set_option maxHeartbeats 4000000 in
theorem arg7_at1 : W1 m ρ c (Proc.devRef .tc main_arg7) = m ((c : Thread nD τ).loc main_arg7) := by
  show StableHlo.after hostOps0 (W0 m ρ c) (Proc.devRef .tc main_arg7) = _
  after_results_simp <;> rfl

theorem arg7_at2 : W2 m ρ c (Proc.devRef .tc main_arg7) = m ((c : Thread nD τ).loc main_arg7) :=
  (W2_of_ne m ρ c main_arg7 (by decide)).trans (arg7_at1 m ρ c)

set_option maxHeartbeats 4000000 in
theorem arg7_at3 : W3 m ρ c (Proc.devRef .tc main_arg7) = m ((c : Thread nD τ).loc main_arg7) := by
  show StableHlo.after hostOps1 (W2 m ρ c) (Proc.devRef .tc main_arg7) = _
  after_results_simp
  exact arg7_at2 m ρ c

theorem arg7_at4 : W4 m ρ c (Proc.devRef .tc main_arg7) = m ((c : Thread nD τ).loc main_arg7) :=
  (W4_of_ne m ρ c main_arg7 (by decide)).trans (arg7_at3 m ρ c)

set_option maxHeartbeats 4000000 in
theorem arg7_at5 : W5 m ρ c (Proc.devRef .tc main_arg7) = m ((c : Thread nD τ).loc main_arg7) := by
  show StableHlo.after hostOps2 (W4 m ρ c) (Proc.devRef .tc main_arg7) = _
  after_results_simp
  exact arg7_at4 m ρ c

/-! ### main_arg8 -/

set_option maxHeartbeats 4000000 in
theorem arg8_at1 : W1 m ρ c (Proc.devRef .tc main_arg8) = m ((c : Thread nD τ).loc main_arg8) := by
  show StableHlo.after hostOps0 (W0 m ρ c) (Proc.devRef .tc main_arg8) = _
  after_results_simp <;> rfl

theorem arg8_at2 : W2 m ρ c (Proc.devRef .tc main_arg8) = m ((c : Thread nD τ).loc main_arg8) :=
  (W2_of_ne m ρ c main_arg8 (by decide)).trans (arg8_at1 m ρ c)

set_option maxHeartbeats 4000000 in
theorem arg8_at3 : W3 m ρ c (Proc.devRef .tc main_arg8) = m ((c : Thread nD τ).loc main_arg8) := by
  show StableHlo.after hostOps1 (W2 m ρ c) (Proc.devRef .tc main_arg8) = _
  after_results_simp
  exact arg8_at2 m ρ c

theorem arg8_at4 : W4 m ρ c (Proc.devRef .tc main_arg8) = m ((c : Thread nD τ).loc main_arg8) :=
  (W4_of_ne m ρ c main_arg8 (by decide)).trans (arg8_at3 m ρ c)

set_option maxHeartbeats 4000000 in
theorem arg8_at5 : W5 m ρ c (Proc.devRef .tc main_arg8) = m ((c : Thread nD τ).loc main_arg8) := by
  show StableHlo.after hostOps2 (W4 m ρ c) (Proc.devRef .tc main_arg8) = _
  after_results_simp
  exact arg8_at4 m ρ c

theorem arg8_at6 : W6 m ρ c (Proc.devRef .tc main_arg8) = m ((c : Thread nD τ).loc main_arg8) :=
  (W6_of_ne m ρ c main_arg8 (by decide)).trans (arg8_at5 m ρ c)

set_option maxHeartbeats 4000000 in
theorem arg8_at7 : W7 m ρ c (Proc.devRef .tc main_arg8) = m ((c : Thread nD τ).loc main_arg8) := by
  show StableHlo.after hostOps3 (W6 m ρ c) (Proc.devRef .tc main_arg8) = _
  after_results_simp
  exact arg8_at6 m ρ c

/-! ### main_arg9 -/

set_option maxHeartbeats 4000000 in
theorem arg9_at1 : W1 m ρ c (Proc.devRef .tc main_arg9) = m ((c : Thread nD τ).loc main_arg9) := by
  show StableHlo.after hostOps0 (W0 m ρ c) (Proc.devRef .tc main_arg9) = _
  after_results_simp <;> rfl

theorem arg9_at2 : W2 m ρ c (Proc.devRef .tc main_arg9) = m ((c : Thread nD τ).loc main_arg9) :=
  (W2_of_ne m ρ c main_arg9 (by decide)).trans (arg9_at1 m ρ c)

set_option maxHeartbeats 4000000 in
theorem arg9_at3 : W3 m ρ c (Proc.devRef .tc main_arg9) = m ((c : Thread nD τ).loc main_arg9) := by
  show StableHlo.after hostOps1 (W2 m ρ c) (Proc.devRef .tc main_arg9) = _
  after_results_simp
  exact arg9_at2 m ρ c

theorem arg9_at4 : W4 m ρ c (Proc.devRef .tc main_arg9) = m ((c : Thread nD τ).loc main_arg9) :=
  (W4_of_ne m ρ c main_arg9 (by decide)).trans (arg9_at3 m ρ c)

set_option maxHeartbeats 4000000 in
theorem arg9_at5 : W5 m ρ c (Proc.devRef .tc main_arg9) = m ((c : Thread nD τ).loc main_arg9) := by
  show StableHlo.after hostOps2 (W4 m ρ c) (Proc.devRef .tc main_arg9) = _
  after_results_simp
  exact arg9_at4 m ρ c

theorem arg9_at6 : W6 m ρ c (Proc.devRef .tc main_arg9) = m ((c : Thread nD τ).loc main_arg9) :=
  (W6_of_ne m ρ c main_arg9 (by decide)).trans (arg9_at5 m ρ c)

set_option maxHeartbeats 4000000 in
theorem arg9_at7 : W7 m ρ c (Proc.devRef .tc main_arg9) = m ((c : Thread nD τ).loc main_arg9) := by
  show StableHlo.after hostOps3 (W6 m ρ c) (Proc.devRef .tc main_arg9) = _
  after_results_simp
  exact arg9_at6 m ρ c

/-! ### main_arg11 -/

set_option maxHeartbeats 4000000 in
theorem arg11_at1 : W1 m ρ c (Proc.devRef .tc main_arg11) = m ((c : Thread nD τ).loc main_arg11) := by
  show StableHlo.after hostOps0 (W0 m ρ c) (Proc.devRef .tc main_arg11) = _
  after_results_simp <;> rfl

theorem arg11_at2 : W2 m ρ c (Proc.devRef .tc main_arg11) = m ((c : Thread nD τ).loc main_arg11) :=
  (W2_of_ne m ρ c main_arg11 (by decide)).trans (arg11_at1 m ρ c)

/-! ### main_arg12 -/

set_option maxHeartbeats 4000000 in
theorem arg12_at1 : W1 m ρ c (Proc.devRef .tc main_arg12) = m ((c : Thread nD τ).loc main_arg12) := by
  show StableHlo.after hostOps0 (W0 m ρ c) (Proc.devRef .tc main_arg12) = _
  after_results_simp <;> rfl

theorem arg12_at2 : W2 m ρ c (Proc.devRef .tc main_arg12) = m ((c : Thread nD τ).loc main_arg12) :=
  (W2_of_ne m ρ c main_arg12 (by decide)).trans (arg12_at1 m ρ c)

set_option maxHeartbeats 4000000 in
theorem arg12_at3 : W3 m ρ c (Proc.devRef .tc main_arg12) = m ((c : Thread nD τ).loc main_arg12) := by
  show StableHlo.after hostOps1 (W2 m ρ c) (Proc.devRef .tc main_arg12) = _
  after_results_simp
  exact arg12_at2 m ρ c

theorem arg12_at4 : W4 m ρ c (Proc.devRef .tc main_arg12) = m ((c : Thread nD τ).loc main_arg12) :=
  (W4_of_ne m ρ c main_arg12 (by decide)).trans (arg12_at3 m ρ c)

/-! ### main_arg13 -/

set_option maxHeartbeats 4000000 in
theorem arg13_at1 : W1 m ρ c (Proc.devRef .tc main_arg13) = m ((c : Thread nD τ).loc main_arg13) := by
  show StableHlo.after hostOps0 (W0 m ρ c) (Proc.devRef .tc main_arg13) = _
  after_results_simp <;> rfl

theorem arg13_at2 : W2 m ρ c (Proc.devRef .tc main_arg13) = m ((c : Thread nD τ).loc main_arg13) :=
  (W2_of_ne m ρ c main_arg13 (by decide)).trans (arg13_at1 m ρ c)

set_option maxHeartbeats 4000000 in
theorem arg13_at3 : W3 m ρ c (Proc.devRef .tc main_arg13) = m ((c : Thread nD τ).loc main_arg13) := by
  show StableHlo.after hostOps1 (W2 m ρ c) (Proc.devRef .tc main_arg13) = _
  after_results_simp
  exact arg13_at2 m ρ c

theorem arg13_at4 : W4 m ρ c (Proc.devRef .tc main_arg13) = m ((c : Thread nD τ).loc main_arg13) :=
  (W4_of_ne m ρ c main_arg13 (by decide)).trans (arg13_at3 m ρ c)

set_option maxHeartbeats 4000000 in
theorem arg13_at5 : W5 m ρ c (Proc.devRef .tc main_arg13) = m ((c : Thread nD τ).loc main_arg13) := by
  show StableHlo.after hostOps2 (W4 m ρ c) (Proc.devRef .tc main_arg13) = _
  after_results_simp
  exact arg13_at4 m ρ c

theorem arg13_at6 : W6 m ρ c (Proc.devRef .tc main_arg13) = m ((c : Thread nD τ).loc main_arg13) :=
  (W6_of_ne m ρ c main_arg13 (by decide)).trans (arg13_at5 m ρ c)

/-! ### main_arg14 -/

set_option maxHeartbeats 4000000 in
theorem arg14_at1 : W1 m ρ c (Proc.devRef .tc main_arg14) = m ((c : Thread nD τ).loc main_arg14) := by
  show StableHlo.after hostOps0 (W0 m ρ c) (Proc.devRef .tc main_arg14) = _
  after_results_simp <;> rfl

theorem arg14_at2 : W2 m ρ c (Proc.devRef .tc main_arg14) = m ((c : Thread nD τ).loc main_arg14) :=
  (W2_of_ne m ρ c main_arg14 (by decide)).trans (arg14_at1 m ρ c)

set_option maxHeartbeats 4000000 in
theorem arg14_at3 : W3 m ρ c (Proc.devRef .tc main_arg14) = m ((c : Thread nD τ).loc main_arg14) := by
  show StableHlo.after hostOps1 (W2 m ρ c) (Proc.devRef .tc main_arg14) = _
  after_results_simp
  exact arg14_at2 m ρ c

theorem arg14_at4 : W4 m ρ c (Proc.devRef .tc main_arg14) = m ((c : Thread nD τ).loc main_arg14) :=
  (W4_of_ne m ρ c main_arg14 (by decide)).trans (arg14_at3 m ρ c)

/-! ### main_arg15 -/

set_option maxHeartbeats 4000000 in
theorem arg15_at1 : W1 m ρ c (Proc.devRef .tc main_arg15) = m ((c : Thread nD τ).loc main_arg15) := by
  show StableHlo.after hostOps0 (W0 m ρ c) (Proc.devRef .tc main_arg15) = _
  after_results_simp <;> rfl

theorem arg15_at2 : W2 m ρ c (Proc.devRef .tc main_arg15) = m ((c : Thread nD τ).loc main_arg15) :=
  (W2_of_ne m ρ c main_arg15 (by decide)).trans (arg15_at1 m ρ c)

set_option maxHeartbeats 4000000 in
theorem arg15_at3 : W3 m ρ c (Proc.devRef .tc main_arg15) = m ((c : Thread nD τ).loc main_arg15) := by
  show StableHlo.after hostOps1 (W2 m ρ c) (Proc.devRef .tc main_arg15) = _
  after_results_simp
  exact arg15_at2 m ρ c

theorem arg15_at4 : W4 m ρ c (Proc.devRef .tc main_arg15) = m ((c : Thread nD τ).loc main_arg15) :=
  (W4_of_ne m ρ c main_arg15 (by decide)).trans (arg15_at3 m ρ c)

end Cert.KernelIdeal.Boundary

end
-- ==== Proof.SageLayer.lean ====
/-
  One heterogeneous SAGE layer, as a function of whole arrays on the extended reals.

  For a node set of `N` rows and 128 features, with `agg` the mean of the neighbours' features (an `[N,128]` array),
  `x` the nodes' own features, `wl`, `wr` two `[128,128]` weight matrices and `b` a bias of length 128, the layer's
  affine part at row `p`, column `q` is

      (Σ_k agg[p,k] · wl[k,q]  +  b[q])  +  Σ_k x[p,k] · wr[k,q]

  and the first layer adds the residual: `x[p,q] + max(affine[p,q], 0)`. Sums over the 128 features are finite sums in
  the commutative monoid of extended reals; no product is distributed and nothing is cancelled, so no entry needs to
  be finite. The one law used between two programs that add the bias at different moments is that addition may be
  regrouped: `(A + X) + b = (A + b) + X`.
-/
import Idealize.ShloMosaic.PureOps.Ideal
import Idealize.ShloMosaic.PureOps.Ideal.Laws
import Idealize.ShloMosaic.Lib.ValueIdx

noncomputable section

namespace Cert.SageLayer

open Idealize.ShloMosaic Idealize.ShloMosaic.ValueIdx

/-- `N` rows of 128 features. -/
abbrev Rows (N : Nat) : Shape := ⟨2, ![N, 128]⟩
/-- A 128 × 128 weight matrix. -/
abbrev Sq : Shape := ⟨2, ![128, 128]⟩
/-- A bias vector of length 128. -/
abbrev Bias : Shape := ⟨1, ![128]⟩

/-- Row `p` of `a` against column `q` of `w`: Σ_k a[p,k] · w[k,q]. -/
def rowDot {N : Nat} (a : FVec Ideal (Rows N) .f32) (w : FVec Ideal Sq .f32) (p : Fin N) (q : Fin 128) : EReal :=
  ∑ k : Fin 128, a (ix2 p k) * w (ix2 k q)

/-- The layer's affine part at row `p`, column `q`: the neighbours' term, then the bias, then the nodes' own term. -/
def affineAt {N : Nat} (agg x : FVec Ideal (Rows N) .f32) (wl wr : FVec Ideal Sq .f32) (b : FVec Ideal Bias .f32)
    (p : Fin N) (q : Fin 128) : EReal :=
  (rowDot agg wl p q + b (ix1 q)) + rowDot x wr p q

/-- The second layer: the affine part, at every index. -/
def affine {N : Nat} (agg x : FVec Ideal (Rows N) .f32) (wl wr : FVec Ideal Sq .f32) (b : FVec Ideal Bias .f32) :
    FVec Ideal (Rows N) .f32 :=
  fun j => affineAt agg x wl wr b (j 0) (j 1)

/-- The first layer: the nodes' own features plus the positive part of the affine part, at every index. -/
def residual {N : Nat} (agg x : FVec Ideal (Rows N) .f32) (wl wr : FVec Ideal Sq .f32) (b : FVec Ideal Bias .f32) :
    FVec Ideal (Rows N) .f32 :=
  fun j => x j + max (affineAt agg x wl wr b (j 0) (j 1)) (Ideal.ofBits .f32 0x00000000#32)

theorem affine_apply {N : Nat} (agg x : FVec Ideal (Rows N) .f32) (wl wr : FVec Ideal Sq .f32) (b : FVec Ideal Bias .f32)
    (p : Fin N) (q : Fin 128) : affine agg x wl wr b (ix2 p q) = affineAt agg x wl wr b p q := rfl

theorem residual_apply {N : Nat} (agg x : FVec Ideal (Rows N) .f32) (wl wr : FVec Ideal Sq .f32) (b : FVec Ideal Bias .f32)
    (p : Fin N) (q : Fin 128) :
    residual agg x wl wr b (ix2 p q)
      = x (ix2 p q) + max (affineAt agg x wl wr b p q) (Ideal.ofBits .f32 0x00000000#32) := rfl

/-- The first layer is the features plus the positive part of the second layer's function. -/
theorem residual_eq {N : Nat} (agg x : FVec Ideal (Rows N) .f32) (wl wr : FVec Ideal Sq .f32) (b : FVec Ideal Bias .f32) :
    residual agg x wl wr b = fun j => x j + max (affine agg x wl wr b j) (Ideal.ofBits .f32 0x00000000#32) := rfl

/-- Addition on the extended reals may be regrouped: adding the bias last or in the middle gives the same number. -/
theorem bias_last (A X b : EReal) : (A + X) + b = (A + b) + X := add_right_comm A X b

/-- A row's dot product only reads that row: two arrays (of possibly different heights) that agree along row `p` of the
    one and row `p'` of the other have the same dot product there. -/
theorem rowDot_congr {N M : Nat} (a : FVec Ideal (Rows N) .f32) (a' : FVec Ideal (Rows M) .f32) (w : FVec Ideal Sq .f32)
    (p : Fin N) (p' : Fin M) (q : Fin 128) (h : ∀ k : Fin 128, a (ix2 p k) = a' (ix2 p' k)) :
    rowDot a w p q = rowDot a' w p' q :=
  Finset.sum_congr rfl fun k _ => by rw [h k]

/-- The affine part at a row only reads that row of the two feature arrays. -/
theorem affineAt_congr {N M : Nat} (agg x : FVec Ideal (Rows N) .f32) (agg' x' : FVec Ideal (Rows M) .f32)
    (wl wr : FVec Ideal Sq .f32) (b : FVec Ideal Bias .f32) (p : Fin N) (p' : Fin M) (q : Fin 128)
    (ha : ∀ k : Fin 128, agg (ix2 p k) = agg' (ix2 p' k)) (hx : ∀ k : Fin 128, x (ix2 p k) = x' (ix2 p' k)) :
    affineAt agg x wl wr b p q = affineAt agg' x' wl wr b p' q := by
  unfold affineAt
  rw [rowDot_congr agg agg' wl p p' q ha, rowDot_congr x x' wr p p' q hx]

/-- The first layer's entry at a row only reads that row: equal rows, weights and bias give equal entries. -/
theorem residual_row_congr {N M : Nat} (agg x : FVec Ideal (Rows N) .f32) (agg' x' : FVec Ideal (Rows M) .f32)
    (wl wr wl' wr' : FVec Ideal Sq .f32) (b b' : FVec Ideal Bias .f32) (p : Fin N) (p' : Fin M) (q : Fin 128)
    (ha : ∀ k : Fin 128, agg (ix2 p k) = agg' (ix2 p' k)) (hx : ∀ k : Fin 128, x (ix2 p k) = x' (ix2 p' k))
    (hwl : wl = wl') (hwr : wr = wr') (hb : b = b') :
    x (ix2 p q) + max (affineAt agg x wl wr b p q) (Ideal.ofBits .f32 0x00000000#32)
      = x' (ix2 p' q) + max (affineAt agg' x' wl' wr' b' p' q) (Ideal.ofBits .f32 0x00000000#32) := by
  subst hwl hwr hb
  rw [hx q, affineAt_congr agg x agg' x' wl wr b p p' q ha hx]

/-- The second layer's entry at a row only reads that row. -/
theorem affine_row_congr {N M : Nat} (agg x : FVec Ideal (Rows N) .f32) (agg' x' : FVec Ideal (Rows M) .f32)
    (wl wr wl' wr' : FVec Ideal Sq .f32) (b b' : FVec Ideal Bias .f32) (p : Fin N) (p' : Fin M) (q : Fin 128)
    (ha : ∀ k : Fin 128, agg (ix2 p k) = agg' (ix2 p' k)) (hx : ∀ k : Fin 128, x (ix2 p k) = x' (ix2 p' k))
    (hwl : wl = wl') (hwr : wr = wr') (hb : b = b') :
    affineAt agg x wl wr b p q = affineAt agg' x' wl' wr' b' p' q := by
  subst hwl hwr hb
  exact affineAt_congr agg x agg' x' wl wr b p p' q ha hx

end Cert.SageLayer

end
-- ==== Proof.BlockValue.lean ====
/-
  What one grid point of the combine kernel stores, read at an index of its block.

  A block is 5000 consecutive rows of the node arrays. At row `p`, column `q` of the block the body computes the two
  matrix products into zero accumulators — each is the sum over the 128 features of a row of the left operand against a
  column of the right one; rounding the operands to bf16 changes nothing on the extended reals —, adds them, adds the
  bias row (a `[1,128]` block broadcast down the rows), and, in the first layer, takes the positive part and adds the
  nodes' own features back. Regrouping the three-term sum puts the bias in the middle, which is where the host-side
  program adds it.
-/
import proofs.«133967_j50276887167328_1_alg».proof.Proof.Gen.KernelIdeal.Skeleton
import proofs.«133967_j50276887167328_1_alg».proof.Proof.SageLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen Cert.SageLayer

/-- The output row of a block's matrix product is the left operand's row. -/
theorem lhs_row (i : S5000x128.Idx) (r : dot_S5000x128_S128x128_S5000x128_1_0_0_1_n_n.contr.Idx) : (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The output column of a block's matrix product is the right operand's column. -/
theorem rhs_col (i : S5000x128.Idx) (r : dot_S5000x128_S128x128_S5000x128_1_0_0_1_n_n.contr.Idx) : (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's matrix product into a zero accumulator, at row `p` and column `q`: Σ_k lhs[p,k] · rhs[k,q]. -/
theorem blockMatmul_apply (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- The bias row broadcast down a block: at `(p, q)` it is the row's entry at `q`. -/
theorem biasBlock_apply (x4 : Vec Ideal S1x128 .f32) (p : Fin 5000) (q : Fin 128) :
    broadcastTo S5000x128 (shapeCast S1x128 x4 shapeCasts_S1x128_S1x128) broadcasts_S1x128_S5000x128 (ix2 p q)
      = x4 (ix2 (0 : Fin 1) q) := by
  rw [shapeCast_self]
  exact broadcastTo_1b_ab_apply x4 broadcasts_S1x128_S5000x128 p q

/-- The bias a `[1,128]` block carries, as a vector of length 128. -/
def biasOf (b2 : FVec Ideal S1x128 .f32) : FVec Ideal Bias .f32 := fun i => b2 (ix2 (0 : Fin 1) (i 0))

/-- FIRST LAYER: what a point stores at `(p, q)` of its block — the nodes' own entry plus the positive part of the
    affine part of the blocks, the bias regrouped into the middle. -/
theorem residualBlock_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = x1 (ix2 p q) + max (affineAt (N := 5000) x0 x1 x2 x3 (biasOf x4) p q) (Ideal.ofBits .f32 0x00000000#32) := by
  unfold k0_pay1
  show x1 (ix2 p q) + max ((matmul dot_S5000x128_S128x128_S5000x128_1_0_0_1_n_n none (truncf .bf16 (shapeCast S5000x128 x0 shapeCasts_S5000x128_S5000x128) bitsLt_bf16_f32) (truncf .bf16 x2 bitsLt_bf16_f32) (constant (F := Ideal) S5000x128 .f32 0x00000000#32) (ix2 p q)
        + matmul dot_S5000x128_S128x128_S5000x128_1_0_0_1_n_n none (truncf .bf16 x1 bitsLt_bf16_f32) (truncf .bf16 x3 bitsLt_bf16_f32) (constant (F := Ideal) S5000x128 .f32 0x00000000#32) (ix2 p q))
        + broadcastTo S5000x128 (shapeCast S1x128 x4 shapeCasts_S1x128_S1x128) broadcasts_S1x128_S5000x128 (ix2 p q)) (Ideal.ofBits .f32 0x00000000#32) = _
  rw [blockMatmul_apply, blockMatmul_apply, biasBlock_apply, shapeCast_self, bias_last]
  rfl

/-- SECOND LAYER: what a point stores at `(p, q)` of its block — the affine part of the blocks. -/
theorem affineBlock_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q) = affineAt (N := 5000) x0 x1 x2 x3 (biasOf x4) p q := by
  unfold k2_pay1
  show (matmul dot_S5000x128_S128x128_S5000x128_1_0_0_1_n_n none (truncf .bf16 (shapeCast S5000x128 x0 shapeCasts_S5000x128_S5000x128) bitsLt_bf16_f32) (truncf .bf16 x2 bitsLt_bf16_f32) (constant (F := Ideal) S5000x128 .f32 0x00000000#32) (ix2 p q)
        + matmul dot_S5000x128_S128x128_S5000x128_1_0_0_1_n_n none (truncf .bf16 (shapeCast S5000x128 x1 shapeCasts_S5000x128_S5000x128) bitsLt_bf16_f32) (truncf .bf16 x3 bitsLt_bf16_f32) (constant (F := Ideal) S5000x128 .f32 0x00000000#32) (ix2 p q))
        + broadcastTo S5000x128 (shapeCast S1x128 x4 shapeCasts_S1x128_S1x128) broadcasts_S1x128_S5000x128 (ix2 p q) = _
  rw [blockMatmul_apply, blockMatmul_apply, biasBlock_apply, shapeCast_self, shapeCast_self, bias_last]
  rfl

/-- The second pair of regions stores the same terms as the first pair. -/
theorem residualBlock_apply' (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = x1 (ix2 p q) + max (affineAt (N := 5000) x0 x1 x2 x3 (biasOf x4) p q) (Ideal.ofBits .f32 0x00000000#32) :=
  residualBlock_apply x0 x1 x2 x3 x4 p q

theorem affineBlock_apply' (x0 x1 : Vec Ideal S5000x128 .f32) (x2 x3 : Vec Ideal S128x128 .f32) (x4 : Vec Ideal S1x128 .f32)
    (p : Fin 5000) (q : Fin 128) :
    k3_pay1 (F := Ideal) x0 x1 x2 x3 x4 (ix2 p q) = affineAt (N := 5000) x0 x1 x2 x3 (biasOf x4) p q :=
  affineBlock_apply x0 x1 x2 x3 x4 p q

end Cert.KernelIdeal.BlockValue

end
-- ==== Proof.Region0.lean ====
/-
  Region 0: the first layer (with the residual) on the 20000 movie rows, from blocks to the whole array.

  The grid has 4 points; point `t` works on rows `5000·t … 5000·t + 4999` of the two feature arrays and writes the same
  rows of the output, while the two weight matrices and the bias row are the same whole arrays at every point. An
  entry of the stored block depends only on its own row of the feature blocks, and that row is row `5000·t + p` of the
  arrays; so what point `t` writes back is block `t` of ONE function of the arrays the region finds, the layer of
  Proof/SageLayer.lean. The 4 blocks tile the 20000 rows (row `r` lies in block `r / 5000`), so the array ends holding that
  function everywhere.
-/
import proofs.«133967_j50276887167328_1_alg».proof.Proof.Gen.KernelIdeal.Frame
import proofs.«133967_j50276887167328_1_alg».proof.Proof.BlockValue
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageLayer Cert.KernelIdeal.BlockValue

variable (V : (c : Dev nD) → (b : Ref sig .tc) → Buf (Elt Ideal) ((c : Thread nD τ).loc b))

theorem hz : (![0, 0] : Fin 2 → Nat) = fun _ => 0 := funext fun a => by fin_cases a <;> rfl

/-- The layer, of the arrays as the region finds them. -/
def layer (c : Dev nD) : S20000x128.Idx → EReal :=
  residual (N := 20000) (V c main_v17) (V c main_arg1) (V c main_arg2) (V c main_arg3) (biasOf (V c main_v36))

/-- The printed index maps over the grid: the three row windows sit at block `t`, the weights and the bias at block 0. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block, as a row of the array. -/
def row (t : Fin cfg0.N) (p : Fin 5000) : Fin 20000 :=
  ⟨t.val * 5000 + p.val, by have ht : t.val < 4 := lt_of_lt_of_eq t.isLt N_0; have hp := p.isLt; omega⟩

/-- WHAT POINT `t` WRITES BACK is block `t` of the layer of the arrays the region finds. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
      = layer V c (((cfg0.win 5).blk t).view.emb (ix2 p q))
  refine (residualBlock_apply (iblk0 V c 0 t) (iblk0 V c 1 t) (iblk0 V c 2 t) (iblk0 V c 3 t) (iblk0 V c 4 t) p q).trans ?_
  -- the output block's entry (p, q) is the array's entry (5000·t + p, q)
  have hout : ((cfg0.win 5).blk t).view.emb (ix2 p q) = ix2 (row t p) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [hout]
  -- each feature block's row p is the array's row 5000·t + p
  have ha : ∀ k : Fin 128, iblk0 V c 0 t (ix2 p k) = V c main_v17 (ix2 (row t p) k) := fun k => by
    show V c main_v17 (((cfg0.win 0).blk t).view.emb (ix2 p k)) = _
    refine congrArg (V c main_v17) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hx : ∀ k : Fin 128, iblk0 V c 1 t (ix2 p k) = V c main_arg1 (ix2 (row t p) k) := fun k => by
    show V c main_arg1 (((cfg0.win 1).blk t).view.emb (ix2 p k)) = _
    refine congrArg (V c main_arg1) ?_
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  -- the weights' and the bias's one block is the whole array
  have hwl : (iblk0 V c 2 t : S128x128.Idx → EReal) = V c main_arg2 := funext fun z => by
    show V c main_arg2 (((cfg0.win 2).blk t).view.emb z) = _
    refine congrArg (V c main_arg2) ?_
    funext a; apply Fin.ext
    match a with
    | ⟨0, _⟩ => show win0_2.index t (0 : Fin 2) * 128 + 1 * (z 0).val = (z 0).val; omega
    | ⟨1, _⟩ => show win0_2.index t (1 : Fin 2) * 128 + 1 * (z 1).val = (z 1).val; omega
  have hwr : (iblk0 V c 3 t : S128x128.Idx → EReal) = V c main_arg3 := funext fun z => by
    show V c main_arg3 (((cfg0.win 3).blk t).view.emb z) = _
    refine congrArg (V c main_arg3) ?_
    funext a; apply Fin.ext
    match a with
    | ⟨0, _⟩ => show win0_3.index t (0 : Fin 2) * 128 + 1 * (z 0).val = (z 0).val; omega
    | ⟨1, _⟩ => show win0_3.index t (1 : Fin 2) * 128 + 1 * (z 1).val = (z 1).val; omega
  have hb : (iblk0 V c 4 t : S1x128.Idx → EReal) = V c main_v36 := funext fun z => by
    show V c main_v36 (((cfg0.win 4).blk t).view.emb z) = _
    refine congrArg (V c main_v36) ?_
    funext a; apply Fin.ext
    match a with
    | ⟨0, _⟩ => show win0_4.index t (0 : Fin 2) * 1 + 1 * (z 0).val = (z 0).val; omega
    | ⟨1, _⟩ => show win0_4.index t (1 : Fin 2) * 128 + 1 * (z 1).val = (z 1).val; omega
  show _
      = residual (N := 20000) (V c main_v17) (V c main_arg1) (V c main_arg2) (V c main_arg3) (biasOf (V c main_v36)) (ix2 (row t p) q)
  exact residual_row_congr (N := 5000) (M := 20000) (iblk0 V c 0 t) (iblk0 V c 1 t) (V c main_v17) (V c main_arg1)
    (iblk0 V c 2 t) (iblk0 V c 3 t) (V c main_arg2) (V c main_arg3) (biasOf (iblk0 V c 4 t)) (biasOf (V c main_v36))
    p (row t p) q ha hx hwl hwr (congrArg biasOf hb)

/-- An index of the array is in point `t`'s block iff each coordinate is in the block's range on its axis. -/
theorem mem_blk (t : Fin cfg0.N) (i : S20000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v37).slice (win0_5.rect t)).set ↔ _
  rw [View.set_slice_whole, Rect.mem_set_unit]
  exact Iff.rfl

/-- The blocks tile the array: row `r` is in the block of point `r / 5000`. -/
theorem cover (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  have hN : cfg0.N = 4 := N_0
  have ht : (i 0).val / 5000 < cfg0.N := by rw [hN]; omega
  obtain ⟨e00, e01, e10, e11, e20, e21, e30, e31, e40, e41, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]
    omega

/-- THE ARRAY after the region: the layer of the arrays the region found, everywhere. -/
theorem final (c : Dev nD) : (dat0 V c).arrAt 5 cfg0.N = layer V c :=
  (dat0 V c).arrAt_eq_of_cover 5 (layer V c) (fun t _ => flushed_eq V c t) cover

end Cert.KernelIdeal.Region0

end
-- ==== Proof.Region1.lean ====
/-
  Region 1: the first layer (with the residual) on the 100000 user rows, from blocks to the whole array.

  The grid has 20 points; point `t` works on rows `5000·t … 5000·t + 4999` of the two feature arrays and writes the same
  rows of the output, while the two weight matrices and the bias row are the same whole arrays at every point. An
  entry of the stored block depends only on its own row of the feature blocks, and that row is row `5000·t + p` of the
  arrays; so what point `t` writes back is block `t` of ONE function of the arrays the region finds, the layer of
  Proof/SageLayer.lean. The 20 blocks tile the 100000 rows (row `r` lies in block `r / 5000`), so the array ends holding that
  function everywhere.
-/
import proofs.«133967_j50276887167328_1_alg».proof.Proof.Gen.KernelIdeal.Frame
import proofs.«133967_j50276887167328_1_alg».proof.Proof.BlockValue
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageLayer Cert.KernelIdeal.BlockValue

variable (V : (c : Dev nD) → (b : Ref sig .tc) → Buf (Elt Ideal) ((c : Thread nD τ).loc b))

theorem hz : (![0, 0] : Fin 2 → Nat) = fun _ => 0 := funext fun a => by fin_cases a <;> rfl

/-- The layer, of the arrays as the region finds them. -/
def layer (c : Dev nD) : S100000x128.Idx → EReal :=
  residual (N := 100000) (V c main_v35) (V c main_arg0) (V c main_arg4) (V c main_arg5) (biasOf (V c main_v38))

/-- The printed index maps over the grid: the three row windows sit at block `t`, the weights and the bias at block 0. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block, as a row of the array. -/
def row (t : Fin cfg1.N) (p : Fin 5000) : Fin 100000 :=
  ⟨t.val * 5000 + p.val, by have ht : t.val < 20 := lt_of_lt_of_eq t.isLt N_1; have hp := p.isLt; omega⟩

/-- WHAT POINT `t` WRITES BACK is block `t` of the layer of the arrays the region finds. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (ix2 p q)
      = layer V c (((cfg1.win 5).blk t).view.emb (ix2 p q))
  refine (residualBlock_apply' (iblk1 V c 0 t) (iblk1 V c 1 t) (iblk1 V c 2 t) (iblk1 V c 3 t) (iblk1 V c 4 t) p q).trans ?_
  -- the output block's entry (p, q) is the array's entry (5000·t + p, q)
  have hout : ((cfg1.win 5).blk t).view.emb (ix2 p q) = ix2 (row t p) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [hout]
  -- each feature block's row p is the array's row 5000·t + p
  have ha : ∀ k : Fin 128, iblk1 V c 0 t (ix2 p k) = V c main_v35 (ix2 (row t p) k) := fun k => by
    show V c main_v35 (((cfg1.win 0).blk t).view.emb (ix2 p k)) = _
    refine congrArg (V c main_v35) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have hx : ∀ k : Fin 128, iblk1 V c 1 t (ix2 p k) = V c main_arg0 (ix2 (row t p) k) := fun k => by
    show V c main_arg0 (((cfg1.win 1).blk t).view.emb (ix2 p k)) = _
    refine congrArg (V c main_arg0) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  -- the weights' and the bias's one block is the whole array
  have hwl : (iblk1 V c 2 t : S128x128.Idx → EReal) = V c main_arg4 := funext fun z => by
    show V c main_arg4 (((cfg1.win 2).blk t).view.emb z) = _
    refine congrArg (V c main_arg4) ?_
    funext a; apply Fin.ext
    match a with
    | ⟨0, _⟩ => show win1_2.index t (0 : Fin 2) * 128 + 1 * (z 0).val = (z 0).val; omega
    | ⟨1, _⟩ => show win1_2.index t (1 : Fin 2) * 128 + 1 * (z 1).val = (z 1).val; omega
  have hwr : (iblk1 V c 3 t : S128x128.Idx → EReal) = V c main_arg5 := funext fun z => by
    show V c main_arg5 (((cfg1.win 3).blk t).view.emb z) = _
    refine congrArg (V c main_arg5) ?_
    funext a; apply Fin.ext
    match a with
    | ⟨0, _⟩ => show win1_3.index t (0 : Fin 2) * 128 + 1 * (z 0).val = (z 0).val; omega
    | ⟨1, _⟩ => show win1_3.index t (1 : Fin 2) * 128 + 1 * (z 1).val = (z 1).val; omega
  have hb : (iblk1 V c 4 t : S1x128.Idx → EReal) = V c main_v38 := funext fun z => by
    show V c main_v38 (((cfg1.win 4).blk t).view.emb z) = _
    refine congrArg (V c main_v38) ?_
    funext a; apply Fin.ext
    match a with
    | ⟨0, _⟩ => show win1_4.index t (0 : Fin 2) * 1 + 1 * (z 0).val = (z 0).val; omega
    | ⟨1, _⟩ => show win1_4.index t (1 : Fin 2) * 128 + 1 * (z 1).val = (z 1).val; omega
  show _
      = residual (N := 100000) (V c main_v35) (V c main_arg0) (V c main_arg4) (V c main_arg5) (biasOf (V c main_v38)) (ix2 (row t p) q)
  exact residual_row_congr (N := 5000) (M := 100000) (iblk1 V c 0 t) (iblk1 V c 1 t) (V c main_v35) (V c main_arg0)
    (iblk1 V c 2 t) (iblk1 V c 3 t) (V c main_arg4) (V c main_arg5) (biasOf (iblk1 V c 4 t)) (biasOf (V c main_v38))
    p (row t p) q ha hx hwl hwr (congrArg biasOf hb)

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The blocks tile the array: row `r` is in the block of point `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e00, e01, e10, e11, e20, e21, e30, e31, e40, e41, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]
    omega

/-- THE ARRAY after the region: the layer of the arrays the region found, everywhere. -/
theorem final (c : Dev nD) : (dat1 V c).arrAt 5 cfg1.N = layer V c :=
  (dat1 V c).arrAt_eq_of_cover 5 (layer V c) (fun t _ => flushed_eq V c t) cover

end Cert.KernelIdeal.Region1

end
-- ==== Proof.Region2.lean ====
/-
  Region 2: the second layer on the 20000 movie rows, from blocks to the whole array.

  The grid has 4 points; point `t` works on rows `5000·t … 5000·t + 4999` of the two feature arrays and writes the same
  rows of the output, while the two weight matrices and the bias row are the same whole arrays at every point. An
  entry of the stored block depends only on its own row of the feature blocks, and that row is row `5000·t + p` of the
  arrays; so what point `t` writes back is block `t` of ONE function of the arrays the region finds, the layer of
  Proof/SageLayer.lean. The 4 blocks tile the 20000 rows (row `r` lies in block `r / 5000`), so the array ends holding that
  function everywhere.
-/
import proofs.«133967_j50276887167328_1_alg».proof.Proof.Gen.KernelIdeal.Frame
import proofs.«133967_j50276887167328_1_alg».proof.Proof.BlockValue
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageLayer Cert.KernelIdeal.BlockValue

variable (V : (c : Dev nD) → (b : Ref sig .tc) → Buf (Elt Ideal) ((c : Thread nD τ).loc b))

theorem hz : (![0, 0] : Fin 2 → Nat) = fun _ => 0 := funext fun a => by fin_cases a <;> rfl

/-- The layer, of the arrays as the region finds them. -/
def layer (c : Dev nD) : S20000x128.Idx → EReal :=
  affine (N := 20000) (V c main_v57) (V c main_v37) (V c main_arg6) (V c main_arg7) (biasOf (V c main_v76))

/-- The printed index maps over the grid: the three row windows sit at block `t`, the weights and the bias at block 0. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block, as a row of the array. -/
def row (t : Fin cfg2.N) (p : Fin 5000) : Fin 20000 :=
  ⟨t.val * 5000 + p.val, by have ht : t.val < 4 := lt_of_lt_of_eq t.isLt N_2; have hp := p.isLt; omega⟩

/-- WHAT POINT `t` WRITES BACK is block `t` of the layer of the arrays the region finds. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  show k2_pay1 (F := Ideal) (iblk2 V c 0 t) (iblk2 V c 1 t) (iblk2 V c 2 t) (iblk2 V c 3 t) (iblk2 V c 4 t) (ix2 p q)
      = layer V c (((cfg2.win 5).blk t).view.emb (ix2 p q))
  refine (affineBlock_apply (iblk2 V c 0 t) (iblk2 V c 1 t) (iblk2 V c 2 t) (iblk2 V c 3 t) (iblk2 V c 4 t) p q).trans ?_
  -- the output block's entry (p, q) is the array's entry (5000·t + p, q)
  have hout : ((cfg2.win 5).blk t).view.emb (ix2 p q) = ix2 (row t p) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  rw [hout]
  -- each feature block's row p is the array's row 5000·t + p
  have ha : ∀ k : Fin 128, iblk2 V c 0 t (ix2 p k) = V c main_v57 (ix2 (row t p) k) := fun k => by
    show V c main_v57 (((cfg2.win 0).blk t).view.emb (ix2 p k)) = _
    refine congrArg (V c main_v57) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have hx : ∀ k : Fin 128, iblk2 V c 1 t (ix2 p k) = V c main_v37 (ix2 (row t p) k) := fun k => by
    show V c main_v37 (((cfg2.win 1).blk t).view.emb (ix2 p k)) = _
    refine congrArg (V c main_v37) ?_
    funext a; apply Fin.ext
    match a with
    | ⟨0, _⟩ => show win2_1.index t (0 : Fin 2) * 5000 + 1 * p.val = t.val * 5000 + p.val; omega
    | ⟨1, _⟩ => show win2_1.index t (1 : Fin 2) * 128 + 1 * k.val = k.val; omega
  -- the weights' and the bias's one block is the whole array
  have hwl : (iblk2 V c 2 t : S128x128.Idx → EReal) = V c main_arg6 := funext fun z => by
    show V c main_arg6 (((cfg2.win 2).blk t).view.emb z) = _
    refine congrArg (V c main_arg6) ?_
    funext a; apply Fin.ext
    match a with
    | ⟨0, _⟩ => show win2_2.index t (0 : Fin 2) * 128 + 1 * (z 0).val = (z 0).val; omega
    | ⟨1, _⟩ => show win2_2.index t (1 : Fin 2) * 128 + 1 * (z 1).val = (z 1).val; omega
  have hwr : (iblk2 V c 3 t : S128x128.Idx → EReal) = V c main_arg7 := funext fun z => by
    show V c main_arg7 (((cfg2.win 3).blk t).view.emb z) = _
    refine congrArg (V c main_arg7) ?_
    funext a; apply Fin.ext
    match a with
    | ⟨0, _⟩ => show win2_3.index t (0 : Fin 2) * 128 + 1 * (z 0).val = (z 0).val; omega
    | ⟨1, _⟩ => show win2_3.index t (1 : Fin 2) * 128 + 1 * (z 1).val = (z 1).val; omega
  have hb : (iblk2 V c 4 t : S1x128.Idx → EReal) = V c main_v76 := funext fun z => by
    show V c main_v76 (((cfg2.win 4).blk t).view.emb z) = _
    refine congrArg (V c main_v76) ?_
    funext a; apply Fin.ext
    match a with
    | ⟨0, _⟩ => show win2_4.index t (0 : Fin 2) * 1 + 1 * (z 0).val = (z 0).val; omega
    | ⟨1, _⟩ => show win2_4.index t (1 : Fin 2) * 128 + 1 * (z 1).val = (z 1).val; omega
  show _
      = affine (N := 20000) (V c main_v57) (V c main_v37) (V c main_arg6) (V c main_arg7) (biasOf (V c main_v76)) (ix2 (row t p) q)
  exact affine_row_congr (N := 5000) (M := 20000) (iblk2 V c 0 t) (iblk2 V c 1 t) (V c main_v57) (V c main_v37)
    (iblk2 V c 2 t) (iblk2 V c 3 t) (V c main_arg6) (V c main_arg7) (biasOf (iblk2 V c 4 t)) (biasOf (V c main_v76))
    p (row t p) q ha hx hwl hwr (congrArg biasOf hb)

/-- An index of the array is in point `t`'s block iff each coordinate is in the block's range on its axis. -/
theorem mem_blk (t : Fin cfg2.N) (i : S20000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v77).slice (win2_5.rect t)).set ↔ _
  rw [View.set_slice_whole, Rect.mem_set_unit]
  exact Iff.rfl

/-- The blocks tile the array: row `r` is in the block of point `r / 5000`. -/
theorem cover (i : S20000x128.Idx) :
    ∃ t : Fin cfg2.N, (cfg2.win 5).flush t = true ∧ i ∈ ((cfg2.win 5).blk t).view.set := by
  have hi0 : (i 0).val < 20000 := (i 0).isLt
  have hi1 : (i 1).val < 128 := (i 1).isLt
  have hN : cfg2.N = 4 := N_2
  have ht : (i 0).val / 5000 < cfg2.N := by rw [hN]; omega
  obtain ⟨e00, e01, e10, e11, e20, e21, e30, e31, e40, e41, e50, e51⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e51]
    omega

/-- THE ARRAY after the region: the layer of the arrays the region found, everywhere. -/
theorem final (c : Dev nD) : (dat2 V c).arrAt 5 cfg2.N = layer V c :=
  (dat2 V c).arrAt_eq_of_cover 5 (layer V c) (fun t _ => flushed_eq V c t) cover

end Cert.KernelIdeal.Region2

end
-- ==== Proof.Region3.lean ====
/-
  Region 3: the second layer on the 100000 user rows, from blocks to the whole array.

  The grid has 20 points; point `t` works on rows `5000·t … 5000·t + 4999` of the two feature arrays and writes the same
  rows of the output, while the two weight matrices and the bias row are the same whole arrays at every point. An
  entry of the stored block depends only on its own row of the feature blocks, and that row is row `5000·t + p` of the
  arrays; so what point `t` writes back is block `t` of ONE function of the arrays the region finds, the layer of
  Proof/SageLayer.lean. The 20 blocks tile the 100000 rows (row `r` lies in block `r / 5000`), so the array ends holding that
  function everywhere.
-/
import proofs.«133967_j50276887167328_1_alg».proof.Proof.Gen.KernelIdeal.Frame
import proofs.«133967_j50276887167328_1_alg».proof.Proof.BlockValue
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageLayer Cert.KernelIdeal.BlockValue

variable (V : (c : Dev nD) → (b : Ref sig .tc) → Buf (Elt Ideal) ((c : Thread nD τ).loc b))

theorem hz : (![0, 0] : Fin 2 → Nat) = fun _ => 0 := funext fun a => by fin_cases a <;> rfl

/-- The layer, of the arrays as the region finds them. -/
def layer (c : Dev nD) : S100000x128.Idx → EReal :=
  affine (N := 100000) (V c main_v75) (V c main_v39) (V c main_arg8) (V c main_arg9) (biasOf (V c main_v78))

/-- The printed index maps over the grid: the three row windows sit at block `t`, the weights and the bias at block 0. -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of point `t`'s block, as a row of the array. -/
def row (t : Fin cfg3.N) (p : Fin 5000) : Fin 100000 :=
  ⟨t.val * 5000 + p.val, by have ht : t.val < 20 := lt_of_lt_of_eq t.isLt N_3; have hp := p.isLt; omega⟩

/-- WHAT POINT `t` WRITES BACK is block `t` of the layer of the arrays the region finds. -/
theorem flushed_eq (c : Dev nD) (t : Fin cfg3.N) :
    (dat3 V c).flushed 5 t = ((cfg3.win 5).blk t).view.read (Elt Ideal) (layer V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  show k3_pay1 (F := Ideal) (iblk3 V c 0 t) (iblk3 V c 1 t) (iblk3 V c 2 t) (iblk3 V c 3 t) (iblk3 V c 4 t) (ix2 p q)
      = layer V c (((cfg3.win 5).blk t).view.emb (ix2 p q))
  refine (affineBlock_apply' (iblk3 V c 0 t) (iblk3 V c 1 t) (iblk3 V c 2 t) (iblk3 V c 3 t) (iblk3 V c 4 t) p q).trans ?_
  -- the output block's entry (p, q) is the array's entry (5000·t + p, q)
  have hout : ((cfg3.win 5).blk t).view.emb (ix2 p q) = ix2 (row t p) q := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * q.val = q.val; omega
  rw [hout]
  -- each feature block's row p is the array's row 5000·t + p
  have ha : ∀ k : Fin 128, iblk3 V c 0 t (ix2 p k) = V c main_v75 (ix2 (row t p) k) := fun k => by
    show V c main_v75 (((cfg3.win 0).blk t).view.emb (ix2 p k)) = _
    refine congrArg (V c main_v75) ?_
    funext a; apply Fin.ext
    match a with
    | ⟨0, _⟩ => show win3_0.index t (0 : Fin 2) * 5000 + 1 * p.val = t.val * 5000 + p.val; omega
    | ⟨1, _⟩ => show win3_0.index t (1 : Fin 2) * 128 + 1 * k.val = k.val; omega
  have hx : ∀ k : Fin 128, iblk3 V c 1 t (ix2 p k) = V c main_v39 (ix2 (row t p) k) := fun k => by
    show V c main_v39 (((cfg3.win 1).blk t).view.emb (ix2 p k)) = _
    refine congrArg (V c main_v39) ?_
    funext a; apply Fin.ext
    match a with
    | ⟨0, _⟩ => show win3_1.index t (0 : Fin 2) * 5000 + 1 * p.val = t.val * 5000 + p.val; omega
    | ⟨1, _⟩ => show win3_1.index t (1 : Fin 2) * 128 + 1 * k.val = k.val; omega
  -- the weights' and the bias's one block is the whole array
  have hwl : (iblk3 V c 2 t : S128x128.Idx → EReal) = V c main_arg8 := funext fun z => by
    show V c main_arg8 (((cfg3.win 2).blk t).view.emb z) = _
    refine congrArg (V c main_arg8) ?_
    funext a; apply Fin.ext
    match a with
    | ⟨0, _⟩ => show win3_2.index t (0 : Fin 2) * 128 + 1 * (z 0).val = (z 0).val; omega
    | ⟨1, _⟩ => show win3_2.index t (1 : Fin 2) * 128 + 1 * (z 1).val = (z 1).val; omega
  have hwr : (iblk3 V c 3 t : S128x128.Idx → EReal) = V c main_arg9 := funext fun z => by
    show V c main_arg9 (((cfg3.win 3).blk t).view.emb z) = _
    refine congrArg (V c main_arg9) ?_
    funext a; apply Fin.ext
    match a with
    | ⟨0, _⟩ => show win3_3.index t (0 : Fin 2) * 128 + 1 * (z 0).val = (z 0).val; omega
    | ⟨1, _⟩ => show win3_3.index t (1 : Fin 2) * 128 + 1 * (z 1).val = (z 1).val; omega
  have hb : (iblk3 V c 4 t : S1x128.Idx → EReal) = V c main_v78 := funext fun z => by
    show V c main_v78 (((cfg3.win 4).blk t).view.emb z) = _
    refine congrArg (V c main_v78) ?_
    funext a; apply Fin.ext
    match a with
    | ⟨0, _⟩ => show win3_4.index t (0 : Fin 2) * 1 + 1 * (z 0).val = (z 0).val; omega
    | ⟨1, _⟩ => show win3_4.index t (1 : Fin 2) * 128 + 1 * (z 1).val = (z 1).val; omega
  show _
      = affine (N := 100000) (V c main_v75) (V c main_v39) (V c main_arg8) (V c main_arg9) (biasOf (V c main_v78)) (ix2 (row t p) q)
  exact affine_row_congr (N := 5000) (M := 100000) (iblk3 V c 0 t) (iblk3 V c 1 t) (V c main_v75) (V c main_v39)
    (iblk3 V c 2 t) (iblk3 V c 3 t) (V c main_arg8) (V c main_arg9) (biasOf (iblk3 V c 4 t)) (biasOf (V c main_v78))
    p (row t p) q ha hx hwl hwr (congrArg biasOf hb)

/-- An index of the array is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v79).slice (win3_5.rect t)).set ↔ _
  rw [View.set_slice_whole, Rect.mem_set_unit]
  exact Iff.rfl

/-- The blocks tile the array: row `r` is in the block of point `r / 5000`. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨e00, e01, e10, e11, e20, e21, e30, e31, e40, e41, e50, e51⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e51]
    omega

/-- THE ARRAY after the region: the layer of the arrays the region found, everywhere. -/
theorem final (c : Dev nD) : (dat3 V c).arrAt 5 cfg3.N = layer V c :=
  (dat3 V c).arrAt_eq_of_cover 5 (layer V c) (fun t _ => flushed_eq V c t) cover

end Cert.KernelIdeal.Region3

end
-- ==== Proof.BoundaryValues.lean ====
/-
  What the intermediate buffers of @main hold at its segment boundaries, as functions of the launch contents.

  After the first stretch of host operations the two neighbour means are in place: the same gather, scatter-add, count and
  division that the reference program applies, so they are the reference's own stage functions of the features and the
  two edge-index arrays (carried as those functions, never opened), and each bias has been reshaped to a `[1,128]` row.
  Region 0 and region 1 then leave the first layer's outputs on the movie rows and on the user rows; the next stretch
  takes the means of THOSE along the same edges; regions 2 and 3 leave the second layer's outputs, which are @main's two
  results. Each buffer is followed from the boundary where it is written to the boundaries where it is read: a host
  stretch keeps a buffer it does not write, and a region keeps every buffer that is not its output array.
-/
import proofs.«133967_j50276887167328_1_alg».proof.Proof.BoundaryArgs
import proofs.«133967_j50276887167328_1_alg».proof.Proof.Region0
import proofs.«133967_j50276887167328_1_alg».proof.Proof.Region1
import proofs.«133967_j50276887167328_1_alg».proof.Proof.Region2
import proofs.«133967_j50276887167328_1_alg».proof.Proof.Region3
import proofs.«133967_j50276887167328_1_alg».proof.Proof.Gen.ReferenceIdeal.Read
import Idealize.ShloMosaic.Lib.ValueLayout

set_option maxRecDepth 16384

noncomputable section

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen Cert.SageLayer Cert.KernelIdeal.BlockValue

/-- A bias of length 128 reshaped to one row of 128 carries the same numbers. -/
theorem biasOf_reshape (x : FVec Ideal S128 .f32) :
    biasOf (fun i => shapeCast S1x128 x shapeCasts_S128_S1x128 i) = x := by
  funext j
  refine (shapeCast_a_1a_apply (a := 128) x shapeCasts_S128_S1x128 (0 : Fin 1) (j 0)).trans ?_
  exact congrArg x (eq_ix1 j).symm

/-- Equal operands, equal first layers. -/
theorem residual_args {N : Nat} {agg agg' x x' : FVec Ideal (Rows N) .f32} {wl wl' wr wr' : FVec Ideal Sq .f32}
    {b b' : FVec Ideal Bias .f32} (h1 : agg = agg') (h2 : x = x') (h3 : wl = wl') (h4 : wr = wr') (h5 : b = b') :
    residual agg x wl wr b = residual agg' x' wl' wr' b' := by
  subst h1 h2 h3 h4 h5; rfl

/-- Equal operands, equal second layers. -/
theorem affine_args {N : Nat} {agg agg' x x' : FVec Ideal (Rows N) .f32} {wl wl' wr wr' : FVec Ideal Sq .f32}
    {b b' : FVec Ideal Bias .f32} (h1 : agg = agg') (h2 : x = x') (h3 : wl = wl') (h4 : wr = wr') (h5 : b = b') :
    affine agg x wl wr b = affine agg' x' wl' wr' b' := by
  subst h1 h2 h3 h4 h5; rfl

variable (m : (ℓ : Loc nD τ sig) → Buf (Elt Ideal) ℓ) (ρ : Dev nD → PrngReg) (c : Dev nD)

/-- The first layer's output on the movie rows, of the launch contents. -/
def firstMovies : FVec Ideal S20000x128 .f32 :=
  residual (N := 20000) (Cert.ReferenceIdeal.Read.val_main_v17 (F := Ideal) (m ((c : Thread nD τ).loc main_arg0)) (m ((c : Thread nD τ).loc main_arg14)) (m ((c : Thread nD τ).loc main_arg15))) (m ((c : Thread nD τ).loc main_arg1)) (m ((c : Thread nD τ).loc main_arg2)) (m ((c : Thread nD τ).loc main_arg3)) (m ((c : Thread nD τ).loc main_arg10))

/-- The first layer's output on the user rows, of the launch contents. -/
def firstUsers : FVec Ideal S100000x128 .f32 :=
  residual (N := 100000) (Cert.ReferenceIdeal.Read.val_main_v41 (F := Ideal) (m ((c : Thread nD τ).loc main_arg1)) (m ((c : Thread nD τ).loc main_arg14)) (m ((c : Thread nD τ).loc main_arg15))) (m ((c : Thread nD τ).loc main_arg0)) (m ((c : Thread nD τ).loc main_arg4)) (m ((c : Thread nD τ).loc main_arg5)) (m ((c : Thread nD τ).loc main_arg11))

/-- The second layer's output on the movie rows: @main's second result. -/
def secondMovies : FVec Ideal S20000x128 .f32 :=
  affine (N := 20000) (Cert.ReferenceIdeal.Read.val_main_v17 (F := Ideal) (firstUsers m c) (m ((c : Thread nD τ).loc main_arg14)) (m ((c : Thread nD τ).loc main_arg15))) (firstMovies m c) (m ((c : Thread nD τ).loc main_arg6)) (m ((c : Thread nD τ).loc main_arg7)) (m ((c : Thread nD τ).loc main_arg12))

/-- The second layer's output on the user rows: @main's first result. -/
def secondUsers : FVec Ideal S100000x128 .f32 :=
  affine (N := 100000) (Cert.ReferenceIdeal.Read.val_main_v41 (F := Ideal) (firstMovies m c) (m ((c : Thread nD τ).loc main_arg14)) (m ((c : Thread nD τ).loc main_arg15))) (firstUsers m c) (m ((c : Thread nD τ).loc main_arg8)) (m ((c : Thread nD τ).loc main_arg9)) (m ((c : Thread nD τ).loc main_arg13))

/-! ## After the first host stretch -/

set_option maxHeartbeats 4000000 in
theorem v17_at1 : W1 m ρ c (Proc.devRef .tc main_v17) = Cert.ReferenceIdeal.Read.val_main_v17 (F := Ideal) (m ((c : Thread nD τ).loc main_arg0)) (m ((c : Thread nD τ).loc main_arg14)) (m ((c : Thread nD τ).loc main_arg15)) := by
  show StableHlo.after hostOps0 (W0 m ρ c) (Proc.devRef .tc main_v17) = _
  after_results_simp <;> rfl

set_option maxHeartbeats 4000000 in
theorem v35_at1 : W1 m ρ c (Proc.devRef .tc main_v35) = Cert.ReferenceIdeal.Read.val_main_v41 (F := Ideal) (m ((c : Thread nD τ).loc main_arg1)) (m ((c : Thread nD τ).loc main_arg14)) (m ((c : Thread nD τ).loc main_arg15)) := by
  show StableHlo.after hostOps0 (W0 m ρ c) (Proc.devRef .tc main_v35) = _
  after_results_simp <;> rfl

set_option maxHeartbeats 4000000 in
theorem v36_at1 : biasOf (W1 m ρ c (Proc.devRef .tc main_v36)) = m ((c : Thread nD τ).loc main_arg10) := by
  show biasOf (StableHlo.after hostOps0 (W0 m ρ c) (Proc.devRef .tc main_v36)) = _
  after_results_simp
  exact biasOf_reshape _

/-! ## Region 0: the first layer on the movie rows -/

theorem v37_at2 : W2 m ρ c (Proc.devRef .tc main_v37) = firstMovies m c :=
  (W2_arr m ρ c 5).trans ((Region0.final (V1 m ρ) c).trans
    (residual_args (v17_at1 m ρ c) (arg1_at1 m ρ c) (arg2_at1 m ρ c) (arg3_at1 m ρ c) (v36_at1 m ρ c)))

theorem v35_at2 : W2 m ρ c (Proc.devRef .tc main_v35) = Cert.ReferenceIdeal.Read.val_main_v41 (F := Ideal) (m ((c : Thread nD τ).loc main_arg1)) (m ((c : Thread nD τ).loc main_arg14)) (m ((c : Thread nD τ).loc main_arg15)) :=
  (W2_of_ne m ρ c main_v35 (by decide)).trans (v35_at1 m ρ c)

/-! ## The one reshape before region 1 -/

set_option maxHeartbeats 4000000 in
theorem v35_at3 : W3 m ρ c (Proc.devRef .tc main_v35) = Cert.ReferenceIdeal.Read.val_main_v41 (F := Ideal) (m ((c : Thread nD τ).loc main_arg1)) (m ((c : Thread nD τ).loc main_arg14)) (m ((c : Thread nD τ).loc main_arg15)) := by
  show StableHlo.after hostOps1 (W2 m ρ c) (Proc.devRef .tc main_v35) = _
  after_results_simp
  exact v35_at2 m ρ c

set_option maxHeartbeats 4000000 in
theorem v37_at3 : W3 m ρ c (Proc.devRef .tc main_v37) = firstMovies m c := by
  show StableHlo.after hostOps1 (W2 m ρ c) (Proc.devRef .tc main_v37) = _
  after_results_simp
  exact v37_at2 m ρ c

set_option maxHeartbeats 4000000 in
theorem v38_at3 : biasOf (W3 m ρ c (Proc.devRef .tc main_v38)) = m ((c : Thread nD τ).loc main_arg11) := by
  show biasOf (StableHlo.after hostOps1 (W2 m ρ c) (Proc.devRef .tc main_v38)) = _
  after_results_simp
  exact (biasOf_reshape _).trans (arg11_at2 m ρ c)

/-! ## Region 1: the first layer on the user rows -/

theorem v39_at4 : W4 m ρ c (Proc.devRef .tc main_v39) = firstUsers m c :=
  (W4_arr m ρ c 5).trans ((Region1.final (V3 m ρ) c).trans
    (residual_args (v35_at3 m ρ c) (arg0_at3 m ρ c) (arg4_at3 m ρ c) (arg5_at3 m ρ c) (v38_at3 m ρ c)))

theorem v37_at4 : W4 m ρ c (Proc.devRef .tc main_v37) = firstMovies m c :=
  (W4_of_ne m ρ c main_v37 (by decide)).trans (v37_at3 m ρ c)

/-! ## The second host stretch: the means of the first layer's outputs -/

set_option maxHeartbeats 4000000 in
theorem v57_at5 : W5 m ρ c (Proc.devRef .tc main_v57) = Cert.ReferenceIdeal.Read.val_main_v17 (F := Ideal) (firstUsers m c) (m ((c : Thread nD τ).loc main_arg14)) (m ((c : Thread nD τ).loc main_arg15)) := by
  show StableHlo.after hostOps2 (W4 m ρ c) (Proc.devRef .tc main_v57) = _
  after_results_simp
  rw [v39_at4 m ρ c, arg14_at4 m ρ c, arg15_at4 m ρ c]
  rfl

set_option maxHeartbeats 4000000 in
theorem v75_at5 : W5 m ρ c (Proc.devRef .tc main_v75) = Cert.ReferenceIdeal.Read.val_main_v41 (F := Ideal) (firstMovies m c) (m ((c : Thread nD τ).loc main_arg14)) (m ((c : Thread nD τ).loc main_arg15)) := by
  show StableHlo.after hostOps2 (W4 m ρ c) (Proc.devRef .tc main_v75) = _
  after_results_simp
  rw [v37_at4 m ρ c, arg14_at4 m ρ c, arg15_at4 m ρ c]
  rfl

set_option maxHeartbeats 4000000 in
theorem v76_at5 : biasOf (W5 m ρ c (Proc.devRef .tc main_v76)) = m ((c : Thread nD τ).loc main_arg12) := by
  show biasOf (StableHlo.after hostOps2 (W4 m ρ c) (Proc.devRef .tc main_v76)) = _
  after_results_simp
  exact (biasOf_reshape _).trans (arg12_at4 m ρ c)

set_option maxHeartbeats 4000000 in
theorem v37_at5 : W5 m ρ c (Proc.devRef .tc main_v37) = firstMovies m c := by
  show StableHlo.after hostOps2 (W4 m ρ c) (Proc.devRef .tc main_v37) = _
  after_results_simp
  exact v37_at4 m ρ c

set_option maxHeartbeats 4000000 in
theorem v39_at5 : W5 m ρ c (Proc.devRef .tc main_v39) = firstUsers m c := by
  show StableHlo.after hostOps2 (W4 m ρ c) (Proc.devRef .tc main_v39) = _
  after_results_simp
  exact v39_at4 m ρ c

/-! ## Region 2: the second layer on the movie rows -/

theorem v77_at6 : W6 m ρ c (Proc.devRef .tc main_v77) = secondMovies m c :=
  (W6_arr m ρ c 5).trans ((Region2.final (V5 m ρ) c).trans
    (affine_args (v57_at5 m ρ c) (v37_at5 m ρ c) (arg6_at5 m ρ c) (arg7_at5 m ρ c) (v76_at5 m ρ c)))

theorem v75_at6 : W6 m ρ c (Proc.devRef .tc main_v75) = Cert.ReferenceIdeal.Read.val_main_v41 (F := Ideal) (firstMovies m c) (m ((c : Thread nD τ).loc main_arg14)) (m ((c : Thread nD τ).loc main_arg15)) :=
  (W6_of_ne m ρ c main_v75 (by decide)).trans (v75_at5 m ρ c)

theorem v39_at6 : W6 m ρ c (Proc.devRef .tc main_v39) = firstUsers m c :=
  (W6_of_ne m ρ c main_v39 (by decide)).trans (v39_at5 m ρ c)

/-! ## The one reshape before region 3 -/

set_option maxHeartbeats 4000000 in
theorem v75_at7 : W7 m ρ c (Proc.devRef .tc main_v75) = Cert.ReferenceIdeal.Read.val_main_v41 (F := Ideal) (firstMovies m c) (m ((c : Thread nD τ).loc main_arg14)) (m ((c : Thread nD τ).loc main_arg15)) := by
  show StableHlo.after hostOps3 (W6 m ρ c) (Proc.devRef .tc main_v75) = _
  after_results_simp
  exact v75_at6 m ρ c

set_option maxHeartbeats 4000000 in
theorem v39_at7 : W7 m ρ c (Proc.devRef .tc main_v39) = firstUsers m c := by
  show StableHlo.after hostOps3 (W6 m ρ c) (Proc.devRef .tc main_v39) = _
  after_results_simp
  exact v39_at6 m ρ c

set_option maxHeartbeats 4000000 in
theorem v77_at7 : W7 m ρ c (Proc.devRef .tc main_v77) = secondMovies m c := by
  show StableHlo.after hostOps3 (W6 m ρ c) (Proc.devRef .tc main_v77) = _
  after_results_simp
  exact v77_at6 m ρ c

set_option maxHeartbeats 4000000 in
theorem v78_at7 : biasOf (W7 m ρ c (Proc.devRef .tc main_v78)) = m ((c : Thread nD τ).loc main_arg13) := by
  show biasOf (StableHlo.after hostOps3 (W6 m ρ c) (Proc.devRef .tc main_v78)) = _
  after_results_simp
  exact (biasOf_reshape _).trans (arg13_at6 m ρ c)

/-! ## Region 3: the second layer on the user rows, and the two results at the last boundary -/

/-- @main's first result at the last boundary. -/
theorem result_users : W8 m ρ c (Proc.devRef .tc main_v79) = secondUsers m c :=
  (W8_arr m ρ c 5).trans ((Region3.final (V7 m ρ) c).trans
    (affine_args (v75_at7 m ρ c) (v39_at7 m ρ c) (arg8_at7 m ρ c) (arg9_at7 m ρ c) (v78_at7 m ρ c)))

/-- @main's second result at the last boundary. -/
theorem result_movies : W8 m ρ c (Proc.devRef .tc main_v77) = secondMovies m c :=
  (W8_of_ne m ρ c main_v77 (by decide)).trans (v77_at7 m ρ c)

end Cert.KernelIdeal.Boundary

end
-- ==== Proof.RefLayers.lean ====
/-
  The reference program's stages are the SAGE layers of Proof/SageLayer.lean.

  On the host the reference computes, per node set, a matrix product of the neighbours' mean with one weight matrix, adds
  the bias (broadcast down the rows), adds the product of the nodes' own features with the other weight matrix, and in
  the first layer takes the positive part and adds the features back. Read at an index, each product is the sum over the
  128 features of a row against a column, so each stage is the layer's function of its operands — whatever the operands
  are: the neighbours' mean is carried as the one function of the features and the two edge-index arrays that it is, and
  is never opened. The second layer's mean is the first layer's mean function applied to the first layer's output.
-/
import proofs.«133967_j50276887167328_1_alg».proof.Proof.Gen.ReferenceIdeal.Read
import proofs.«133967_j50276887167328_1_alg».proof.Proof.SageLayer
import Idealize.ShloMosaic.Lib.ValueIdx

set_option maxRecDepth 16384

noncomputable section

namespace Cert.ReferenceIdeal.Layers

open Idealize.ShloMosaic Idealize.ShloMosaic.ValueIdx Cert.ReferenceIdeal Cert.ReferenceIdeal.Read Cert.SageLayer

/-- The mean over each movie's incoming edges of the user features gathered along them (zero-count rows divided by
    one): a function of the `[100000,128]` features and the two edge-index arrays. -/
abbrev meanAtMovies (xu : FVec Ideal S100000x128 .f32) (src dst : (⟨S1000000, .i32⟩ : BufTy).Contents (Elt Ideal)) :
    FVec Ideal S20000x128 .f32 := val_main_v17 (F := Ideal) xu src dst

/-- The mean over each user's edges of the movie features gathered along them. -/
abbrev meanAtUsers (xm : FVec Ideal S20000x128 .f32) (src dst : (⟨S1000000, .i32⟩ : BufTy).Contents (Elt Ideal)) :
    FVec Ideal S100000x128 .f32 := val_main_v41 (F := Ideal) xm src dst

/-- On the 20000 movie rows: product, bias, product — the affine part of the layer, of any operands. -/
theorem affineMovies (agg x : FVec Ideal S20000x128 .f32) (wl wr : FVec Ideal S128x128 .f32) (b : FVec Ideal S128 .f32) :
    addf (addf (val_main_v22 (F := Ideal) agg wl) (val_main_v20 (F := Ideal) b)) (val_main_v22 (F := Ideal) x wr)
      = affine (N := 20000) agg x wl wr b := by
  funext i
  obtain ⟨p, q, rfl⟩ : ∃ (p : Fin 20000) (q : Fin 128), i = ix2 p q := ⟨i 0, i 1, eq_ix2 i⟩
  show (val_main_v22 (F := Ideal) agg wl (ix2 p q) + val_main_v20 (F := Ideal) b (ix2 p q)) + val_main_v22 (F := Ideal) x wr (ix2 p q)
      = affineAt agg x wl wr b p q
  rw [val_main_v22_apply, val_main_v22_apply, val_main_v20_apply, val_main_v19_apply]
  have hl : ∀ k : Fin 128, lidx_main_v22 (ix2 p q) k = ix2 p k := fun k => funext fun a => Fin.ext (by
    match a with
    | ⟨0, _⟩ => rfl
    | ⟨1, _⟩ => rfl)
  have hr : ∀ k : Fin 128, ridx_main_v22 (ix2 p q) k = ix2 k q := fun k => funext fun a => Fin.ext (by
    match a with
    | ⟨0, _⟩ => rfl
    | ⟨1, _⟩ => rfl)
  have hb : idx_main_v19 (idx_main_v20 (ix2 p q)) = ix1 q := funext fun a => Fin.ext (by
    match a with
    | ⟨0, _⟩ => rfl)
  simp only [hl, hr, hb]
  rfl

/-- On the 100000 user rows: the same. -/
theorem affineUsers (agg x : FVec Ideal S100000x128 .f32) (wl wr : FVec Ideal S128x128 .f32) (b : FVec Ideal S128 .f32) :
    addf (addf (val_main_v46 (F := Ideal) agg wl) (val_main_v44 (F := Ideal) b)) (val_main_v46 (F := Ideal) x wr)
      = affine (N := 100000) agg x wl wr b := by
  funext i
  obtain ⟨p, q, rfl⟩ : ∃ (p : Fin 100000) (q : Fin 128), i = ix2 p q := ⟨i 0, i 1, eq_ix2 i⟩
  show (val_main_v46 (F := Ideal) agg wl (ix2 p q) + val_main_v44 (F := Ideal) b (ix2 p q)) + val_main_v46 (F := Ideal) x wr (ix2 p q)
      = affineAt agg x wl wr b p q
  rw [val_main_v46_apply, val_main_v46_apply, val_main_v44_apply, val_main_v43_apply]
  have hl : ∀ k : Fin 128, lidx_main_v46 (ix2 p q) k = ix2 p k := fun k => funext fun a => Fin.ext (by
    match a with
    | ⟨0, _⟩ => rfl
    | ⟨1, _⟩ => rfl)
  have hr : ∀ k : Fin 128, ridx_main_v46 (ix2 p q) k = ix2 k q := fun k => funext fun a => Fin.ext (by
    match a with
    | ⟨0, _⟩ => rfl
    | ⟨1, _⟩ => rfl)
  have hb : idx_main_v43 (idx_main_v44 (ix2 p q)) = ix1 q := funext fun a => Fin.ext (by
    match a with
    | ⟨0, _⟩ => rfl)
  simp only [hl, hr, hb]
  rfl

variable (x0 : FVec Ideal S100000x128 .f32) (x1 : FVec Ideal S20000x128 .f32)
  (x2 x3 x4 x5 x6 x7 x8 x9 : FVec Ideal S128x128 .f32) (x10 x11 x12 x13 : FVec Ideal S128 .f32)
  (x14 x15 : (⟨S1000000, .i32⟩ : BufTy).Contents (Elt Ideal))

/-- FIRST LAYER, movies: the reference's `x_movie + relu(…)` is the residual layer of the mean at the movies. -/
theorem firstMovies : val_main_v51 (F := Ideal) x0 x1 x2 x3 x10 x14 x15
    = residual (N := 20000) (meanAtMovies x0 x14 x15) x1 x2 x3 x10 := by
  unfold val_main_v51 val_main_v50
  rw [show val_main_v23 (F := Ideal) x0 x1 x2 x3 x10 x14 x15 = affine (N := 20000) (meanAtMovies x0 x14 x15) x1 x2 x3 x10
        from affineMovies (val_main_v17 (F := Ideal) x0 x14 x15) x1 x2 x3 x10, residual_eq]
  generalize affine (N := 20000) (meanAtMovies x0 x14 x15) x1 x2 x3 x10 = A
  funext i
  rw [addf_apply, maximumf_apply, val_main_call1_v0_apply, val_main_call1_cst_apply, Ideal.ofBits_def]

/-- FIRST LAYER, users. -/
theorem firstUsers : val_main_v49 (F := Ideal) x0 x1 x4 x5 x11 x14 x15
    = residual (N := 100000) (meanAtUsers x1 x14 x15) x0 x4 x5 x11 := by
  unfold val_main_v49 val_main_v48
  rw [show val_main_v47 (F := Ideal) x0 x1 x4 x5 x11 x14 x15 = affine (N := 100000) (meanAtUsers x1 x14 x15) x0 x4 x5 x11
        from affineUsers (val_main_v41 (F := Ideal) x1 x14 x15) x0 x4 x5 x11, residual_eq]
  generalize affine (N := 100000) (meanAtUsers x1 x14 x15) x0 x4 x5 x11 = A
  funext i
  rw [addf_apply, maximumf_apply, val_main_call0_v0_apply, val_main_call0_cst_apply, Ideal.ofBits_def]

/-- SECOND LAYER, movies: the affine layer of the mean, at the movies, of the users' first-layer output. -/
theorem secondMovies : val_main_v75 (F := Ideal) x0 x1 x2 x3 x4 x5 x6 x7 x10 x11 x12 x14 x15
    = affine (N := 20000) (meanAtMovies (val_main_v49 (F := Ideal) x0 x1 x4 x5 x11 x14 x15) x14 x15)
        (val_main_v51 (F := Ideal) x0 x1 x2 x3 x10 x14 x15) x6 x7 x12 :=
  affineMovies (val_main_v17 (F := Ideal) (val_main_v49 (F := Ideal) x0 x1 x4 x5 x11 x14 x15) x14 x15)
    (val_main_v51 (F := Ideal) x0 x1 x2 x3 x10 x14 x15) x6 x7 x12

/-- SECOND LAYER, users. -/
theorem secondUsers : val_main_v99 (F := Ideal) x0 x1 x2 x3 x4 x5 x8 x9 x10 x11 x13 x14 x15
    = affine (N := 100000) (meanAtUsers (val_main_v51 (F := Ideal) x0 x1 x2 x3 x10 x14 x15) x14 x15)
        (val_main_v49 (F := Ideal) x0 x1 x4 x5 x11 x14 x15) x8 x9 x13 :=
  affineUsers (val_main_v41 (F := Ideal) (val_main_v51 (F := Ideal) x0 x1 x2 x3 x10 x14 x15) x14 x15)
    (val_main_v49 (F := Ideal) x0 x1 x4 x5 x11 x14 x15) x8 x9 x13

end Cert.ReferenceIdeal.Layers

end
-- ==== Proof.RefResults.lean ====
/-
  The reference program's two results as functions of its argument arrays.

  The second layer on the user rows takes the mean, at the users, of the first layer's output on the movie rows, and the
  first layer's output on the user rows; the second layer on the movie rows the other way round. Each result depends on
  thirteen of the sixteen arguments.
-/
import proofs.«133967_j50276887167328_1_alg».proof.Proof.RefLayers

set_option maxRecDepth 16384

noncomputable section

namespace Cert.ReferenceIdeal.Layers

open Idealize.ShloMosaic Idealize.SL.Sem Cert.ReferenceIdeal Cert.ReferenceIdeal.Read Cert.SageLayer

/-- @main's first result: the second layer on the 100000 user rows. -/
def outUsers (x0 : FVec Ideal S100000x128 .f32) (x1 : FVec Ideal S20000x128 .f32) (x2 x3 x4 x5 x8 x9 : FVec Ideal S128x128 .f32)
    (x10 x11 x13 : FVec Ideal S128 .f32) (x14 x15 : (⟨S1000000, .i32⟩ : BufTy).Contents (Elt Ideal)) : FVec Ideal S100000x128 .f32 :=
  affine (N := 100000) (meanAtUsers (residual (N := 20000) (meanAtMovies x0 x14 x15) x1 x2 x3 x10) x14 x15)
    (residual (N := 100000) (meanAtUsers x1 x14 x15) x0 x4 x5 x11) x8 x9 x13

/-- @main's second result: the second layer on the 20000 movie rows. -/
def outMovies (x0 : FVec Ideal S100000x128 .f32) (x1 : FVec Ideal S20000x128 .f32) (x2 x3 x4 x5 x6 x7 : FVec Ideal S128x128 .f32)
    (x10 x11 x12 : FVec Ideal S128 .f32) (x14 x15 : (⟨S1000000, .i32⟩ : BufTy).Contents (Elt Ideal)) : FVec Ideal S20000x128 .f32 :=
  affine (N := 20000) (meanAtMovies (residual (N := 100000) (meanAtUsers x1 x14 x15) x0 x4 x5 x11) x14 x15)
    (residual (N := 20000) (meanAtMovies x0 x14 x15) x1 x2 x3 x10) x6 x7 x12

variable (m : (ℓ : Loc nD τ sig) → Buf (Elt Ideal) ℓ) (c : Dev nD)

/-- The run's first result term is `outUsers` of the launch contents. -/
theorem result_users : Cert.ReferenceIdeal.Value.res_main_v99 m c
    = outUsers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg14)) (m ((c.tc : Thread nD τ).loc main_arg15)) := by
  rw [val_main_v99_eq, secondUsers, firstMovies, firstUsers]
  rfl

/-- The run's second result term is `outMovies` of the launch contents. -/
theorem result_movies : Cert.ReferenceIdeal.Value.res_main_v75 m c
    = outMovies (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg14)) (m ((c.tc : Thread nD τ).loc main_arg15)) := by
  rw [val_main_v75_eq, secondMovies, firstMovies, firstUsers]
  rfl

end Cert.ReferenceIdeal.Layers

end
-- ==== Proof.lean ====
/-
  The kernel and its reference compute the same two-layer heterogeneous SAGE encoder on the extended reals.

  Both programs form, by the same host operations, the mean of the neighbours' features along the edges, once for the
  movies and once for the users, and pass it with the nodes' own features through an affine layer; the first layer adds
  the positive part back to the features, the second layer is the result. The reference does each layer with two host
  matrix products; the kernel does it block by block, 5000 rows at a time, in four pallas regions, with the bias added
  after both products instead of between them. On the extended reals a matrix product entry is a finite sum of products,
  rounding the operands to bf16 changes nothing, the blocks tile the rows, and a three-term sum may be regrouped; no
  product is distributed and nothing is cancelled, so the precondition (finite inputs) is never opened.

  The three frames are the generated ones (the reference's is its generated run with the results dropped), the ideal pass
  rewrote nothing, and the two programs' results are the same functions of arguments that agree.
-/
import proofs.«133967_j50276887167328_1_alg».proof.Defs
import proofs.«133967_j50276887167328_1_alg».proof.Proof.Gen.Kernel
import proofs.«133967_j50276887167328_1_alg».proof.Proof.Gen.Kernel.Frame
import proofs.«133967_j50276887167328_1_alg».proof.Proof.Gen.KernelIdeal
import proofs.«133967_j50276887167328_1_alg».proof.Proof.Gen.KernelIdeal.Frame
import proofs.«133967_j50276887167328_1_alg».proof.Proof.Gen.ReferenceIdeal
import proofs.«133967_j50276887167328_1_alg».proof.Proof.Gen.ReferenceIdeal.Run
import proofs.«133967_j50276887167328_1_alg».proof.Proof.Gen.ReferenceIdeal.Read
import proofs.«133967_j50276887167328_1_alg».proof.Proof.Gen.Pre_finite_inputs
import proofs.«133967_j50276887167328_1_alg».proof.Proof.KernelRun
import proofs.«133967_j50276887167328_1_alg».proof.Proof.BoundaryValues
import proofs.«133967_j50276887167328_1_alg».proof.Proof.RefResults
import Idealize.ShloMosaic.Adequacy
import Idealize.ShloMosaic.Init

set_option maxRecDepth 16384

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2.2)
    (Cert.ReferenceIdeal.Value.run (F := Ideal) m ρ)

/-- The ideal pass rewrote no operation of the kernel. -/
theorem preserves : Cert.preserves_Kernel_KernelIdeal := trivial

/-- From memories that agree on the sixteen arguments both programs end with the second layer's two outputs: the kernel's
    regions leave them block by block, the reference's host operations compute them whole, and they are one function of
    the arguments. -/
theorem algebraic : Cert.algebraic_KernelIdeal_ReferenceIdeal := by
  intro m ρ m' ρ' _ hagree
  refine ⟨fun c => Cert.KernelIdeal.Boundary.secondUsers m c, fun c => Cert.KernelIdeal.Boundary.secondMovies m c, ?_, ?_⟩
  · refine (θ_run Cert.KernelIdeal.defs _ _).mono (fun r h c => ?_) (Cert.KernelIdeal.RunValue.run_results (F := Ideal) m ρ)
    obtain ⟨hu, hm, hargs⟩ := h c
    exact ⟨hu.trans (Cert.KernelIdeal.Boundary.result_users m ρ c), hm.trans (Cert.KernelIdeal.Boundary.result_movies m ρ c), hargs⟩
  · refine (θ_run Cert.ReferenceIdeal.defs _ _).mono (fun r h c => ?_) (Cert.ReferenceIdeal.Value.run (F := Ideal) m' ρ')
    obtain ⟨hu, hm, hargs⟩ := h c
    obtain ⟨e0, e1, e2, e3, e4, e5, e6, e7, e8, e9, e10, e11, e12, e13, e14, e15⟩ := hagree c
    refine ⟨hu.trans ?_, hm.trans ?_, hargs⟩
    · rw [Cert.ReferenceIdeal.Layers.result_users, e0, e1, e2, e3, e4, e5, e8, e9, e10, e11, e13, e14, e15]
      rfl
    · rw [Cert.ReferenceIdeal.Layers.result_movies, e0, e1, e2, e3, e4, e5, e6, e7, e10, e11, e12, e14, e15]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
